-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S128 .f32) (main_arg6 : FVec F S128x1 .f32) (main_arg7 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x1 .f32 := Host.absf main_arg6
  let main_cst_8 : FVec F S_ .f32 := constant S_ .f32 0x7F800000#32
  let main_v25 : FVec F S128x1 .f32 := broadcastInDim S128x1 ![] bcast_S_S128x1 main_cst_8
  let main_v26 : IVec S128x1 1 := cmpf .olt main_v24 main_v25
  let main_c_9 : IVec S_ 1 := constantI S_ 1 1#1
  let main_v27 : IVec S_ 1 := (fun x v => Host.reduce IntOp.andi x v reducesTo_S128x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128x1 .f32) (main_arg7 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1x128 : Shape := ⟨2, ![1, 128]⟩
abbrev S1x1 : Shape := ⟨2, ![1, 1]⟩
abbrev S5000x128 : Shape := ⟨2, ![5000, 128]⟩
abbrev S5000x1 : Shape := ⟨2, ![5000, 1]⟩
abbrev S1600000x128 : Shape := ⟨2, ![1600000, 128]⟩

abbrev nBuf : Space → Nat
  | .hbm => 56
  | .vmem => 28
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x1, .f32⟩
  | .hbm, ⟨7, _⟩ => ⟨S1, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000, .f32⟩
  | .hbm, ⟨22, _⟩ => ⟨S100000x1, .f32⟩
  | .hbm, ⟨23, _⟩ => ⟨S1x128, .f32⟩
  | .hbm, ⟨24, _⟩ => ⟨S1x128, .f32⟩
  | .hbm, ⟨25, _⟩ => ⟨S1x1, .f32⟩
  | .hbm, ⟨26, _⟩ => ⟨S100000x128, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x128, .f32⟩
  | .hbm, ⟨36, _⟩ => ⟨S_, .f32⟩
  | .hbm, ⟨37, _⟩ => ⟨S100000x128, .f32⟩
  | .hbm, ⟨38, _⟩ => ⟨S1600000x1, .i32⟩
  | .hbm, ⟨39, _⟩ => ⟨S100000x128, .f32⟩
  | .hbm, ⟨40, _⟩ => ⟨S100000x128, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x128, .f32⟩
  | .hbm, ⟨50, _⟩ => ⟨S_, .f32⟩
  | .hbm, ⟨51, _⟩ => ⟨S100000x128, .f32⟩
  | .hbm, ⟨52, _⟩ => ⟨S1600000x1, .i32⟩
  | .hbm, ⟨53, _⟩ => ⟨S100000x128, .f32⟩
  | .hbm, ⟨54, _⟩ => ⟨S100000x1, .f32⟩
  | .hbm, ⟨55, _⟩ => ⟨S100000, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x1, .f32⟩
  | .local _ .vmem, ⟨12, _⟩ => ⟨S5000x1, .f32⟩
  | .local _ .vmem, ⟨13, _⟩ => ⟨S1x128, .f32⟩
  | .local _ .vmem, ⟨14, _⟩ => ⟨S128x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x1, .f32⟩
  | .local _ .vmem, ⟨22, _⟩ => ⟨S5000x1, .f32⟩
  | .local _ .vmem, ⟨23, _⟩ => ⟨S1x128, .f32⟩
  | .local _ .vmem, ⟨24, _⟩ => ⟨S128x1, .f32⟩
  | .local _ .vmem, ⟨25, _⟩ => ⟨S1x1, .f32⟩
  | .local _ .vmem, ⟨26, _⟩ => ⟨S5000x1, .f32⟩
  | .local _ .vmem, ⟨27, _⟩ => ⟨S5000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_c_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_4 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg6_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem6_1 : DmaSem sig := 27

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x1 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  shapeCasts_S128_S1x128 : S128.ShapeCasts S1x128
  shapeCasts_S1_S1x1 : S1.ShapeCasts S1x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S100000x128 : S_.BroadcastsInDim S100000x128 (![] : Fin 0 → Fin S100000x128.rank)
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  shapeCasts_S100000x1_S100000 : S100000x1.ShapeCasts S100000
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x1_S5000x1_1_0_0_1_n_n_wf : DotDims.WF S5000x128 S128x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x1.size a ≤ S128x1.size a
  hwx2_4 : ∀ i : grid2.Coords, EltTy.bits .f32 = 32 ∨ (Rect.block (s := S128x1) S128x1.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x1.size a ≤ S1x1.size a
  hwx2_5 : ∀ i : grid2.Coords, EltTy.bits .f32 = 32 ∨ (Rect.block (s := S1x1) S1x1.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x1.size a ≤ S100000x1.size a
  hwx2_6 : ∀ i : grid2.Coords, EltTy.bits .f32 = 32 ∨ (Rect.block (s := S100000x1) S5000x1.size (cc2_transform_6 i) (hinb2_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v15) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v12) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v26) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v26) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v36) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v11) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v13) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg6) S128x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v14) S1x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v37) S5000x1.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S1x1 : Shape := ⟨2, ![1, 1]⟩

abbrev nBuf : Space → Nat
  | .hbm => 130
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x128, .f32⟩
  | 5 => ⟨S128, .f32⟩
  | 6 => ⟨S128x1, .f32⟩
  | 7 => ⟨S1, .f32⟩
  | 8 => ⟨S1x1600000, .i32⟩
  | 9 => ⟨S1600000, .i32⟩
  | 10 => ⟨S1x1600000, .i32⟩
  | 11 => ⟨S1600000, .i32⟩
  | 12 => ⟨S_, .f32⟩
  | 13 => ⟨S1600000, .f32⟩
  | 14 => ⟨S_, .f32⟩
  | 15 => ⟨S100000, .f32⟩
  | 16 => ⟨S1600000x1, .i32⟩
  | 17 => ⟨S100000, .f32⟩
  | 18 => ⟨S_, .f32⟩
  | 19 => ⟨S100000, .f32⟩
  | 20 => ⟨S100000, .f32⟩
  | 21 => ⟨S100000, .f32⟩
  | 22 => ⟨S_, .f32⟩
  | 23 => ⟨S100000, .f32⟩
  | 24 => ⟨S100000, .f32⟩
  | 25 => ⟨S100000x128, .f32⟩
  | 26 => ⟨S_, .i32⟩
  | 27 => ⟨S1600000, .i32⟩
  | 28 => ⟨S1600000, .i1⟩
  | 29 => ⟨S_, .i32⟩
  | 30 => ⟨S1600000, .i32⟩
  | 31 => ⟨S1600000, .i32⟩
  | 32 => ⟨S1600000, .i32⟩
  | 33 => ⟨S1600000x1, .i32⟩
  | 34 => ⟨S1600000, .f32⟩
  | 35 => ⟨S_, .i32⟩
  | 36 => ⟨S1600000, .i32⟩
  | 37 => ⟨S1600000, .i1⟩
  | 38 => ⟨S_, .i32⟩
  | 39 => ⟨S1600000, .i32⟩
  | 40 => ⟨S1600000, .i32⟩
  | 41 => ⟨S1600000, .i32⟩
  | 42 => ⟨S1600000x1, .i32⟩
  | 43 => ⟨S1600000, .f32⟩
  | 44 => ⟨S1600000, .f32⟩
  | 45 => ⟨S_, .i32⟩
  | 46 => ⟨S1600000, .i32⟩
  | 47 => ⟨S1600000, .i1⟩
  | 48 => ⟨S_, .i32⟩
  | 49 => ⟨S1600000, .i32⟩
  | 50 => ⟨S1600000, .i32⟩
  | 51 => ⟨S1600000, .i32⟩
  | 52 => ⟨S1600000x1, .i32⟩
  | 53 => ⟨S1600000x128, .f32⟩
  | 54 => ⟨S1600000x1, .f32⟩
  | 55 => ⟨S1600000x128, .f32⟩
  | 56 => ⟨S1600000x128, .f32⟩
  | 57 => ⟨S_, .f32⟩
  | 58 => ⟨S100000x128, .f32⟩
  | 59 => ⟨S1600000x1, .i32⟩
  | 60 => ⟨S100000x128, .f32⟩
  | 61 => ⟨S100000x1, .f32⟩
  | 62 => ⟨S100000x128, .f32⟩
  | 63 => ⟨S100000x128, .f32⟩
  | 64 => ⟨S100000x128, .f32⟩
  | 65 => ⟨S1x128, .f32⟩
  | 66 => ⟨S100000x128, .f32⟩
  | 67 => ⟨S100000x128, .f32⟩
  | 68 => ⟨S_, .f32⟩
  | 69 => ⟨S100000x128, .f32⟩
  | 70 => ⟨S100000x128, .f32⟩
  | 71 => ⟨S100000x128, .f32⟩
  | 72 => ⟨S_, .i32⟩
  | 73 => ⟨S1600000, .i32⟩
  | 74 => ⟨S1600000, .i1⟩
  | 75 => ⟨S_, .i32⟩
  | 76 => ⟨S1600000, .i32⟩
  | 77 => ⟨S1600000, .i32⟩
  | 78 => ⟨S1600000, .i32⟩
  | 79 => ⟨S1600000x1, .i32⟩
  | 80 => ⟨S1600000, .f32⟩
  | 81 => ⟨S_, .i32⟩
  | 82 => ⟨S1600000, .i32⟩
  | 83 => ⟨S1600000, .i1⟩
  | 84 => ⟨S_, .i32⟩
  | 85 => ⟨S1600000, .i32⟩
  | 86 => ⟨S1600000, .i32⟩
  | 87 => ⟨S1600000, .i32⟩
  | 88 => ⟨S1600000x1, .i32⟩
  | 89 => ⟨S1600000, .f32⟩
  | 90 => ⟨S1600000, .f32⟩
  | 91 => ⟨S_, .i32⟩
  | 92 => ⟨S1600000, .i32⟩
  | 93 => ⟨S1600000, .i1⟩
  | 94 => ⟨S_, .i32⟩
  | 95 => ⟨S1600000, .i32⟩
  | 96 => ⟨S1600000, .i32⟩
  | 97 => ⟨S1600000, .i32⟩
  | 98 => ⟨S1600000x1, .i32⟩
  | 99 => ⟨S1600000x128, .f32⟩
  | 100 => ⟨S1600000x1, .f32⟩
  | 101 => ⟨S1600000x128, .f32⟩
  | 102 => ⟨S1600000x128, .f32⟩
  | 103 => ⟨S_, .f32⟩
  | 104 => ⟨S100000x128, .f32⟩
  | 105 => ⟨S1600000x1, .i32⟩
  | 106 => ⟨S100000x128, .f32⟩
  | 107 => ⟨S100000x1, .f32⟩
  | 108 => ⟨S100000x128, .f32⟩
  | 109 => ⟨S100000x128, .f32⟩
  | 110 => ⟨S100000x128, .f32⟩
  | 111 => ⟨S1x128, .f32⟩
  | 112 => ⟨S100000x128, .f32⟩
  | 113 => ⟨S100000x128, .f32⟩
  | 114 => ⟨S_, .f32⟩
  | 115 => ⟨S100000x128, .f32⟩
  | 116 => ⟨S100000x128, .f32⟩
  | 117 => ⟨S100000x1, .f32⟩
  | 118 => ⟨S1x1, .f32⟩
  | 119 => ⟨S100000x1, .f32⟩
  | 120 => ⟨S100000x1, .f32⟩
  | 121 => ⟨S100000x1, .f32⟩
  | 122 => ⟨S100000x1, .f32⟩
  | 123 => ⟨S_, .f32⟩
  | 124 => ⟨S100000x1, .f32⟩
  | 125 => ⟨S100000x1, .f32⟩
  | 126 => ⟨S_, .f32⟩
  | 127 => ⟨S100000x1, .f32⟩
  | _ => ⟨S100000x128, .f32⟩

abbrev hbmTy0_1 (i : Nat) : BufTy := match i % 128 with
  | 0 => ⟨S100000x1, .f32⟩
  | 1 => ⟨S100000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_c_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_c_7 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_8 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_call0_cst : Ref sig .tc := ⟨.hbm, 68, rfl⟩
abbrev main_call0_v0 : Ref sig .tc := ⟨.hbm, 69, rfl⟩
abbrev main_v49 : Ref sig .tc := ⟨.hbm, 70, rfl⟩
abbrev main_v50 : Ref sig .tc := ⟨.hbm, 71, rfl⟩
abbrev main_c_9 : Ref sig .tc := ⟨.hbm, 72, rfl⟩
abbrev main_v51 : Ref sig .tc := ⟨.hbm, 73, rfl⟩
abbrev main_v52 : Ref sig .tc := ⟨.hbm, 74, rfl⟩
abbrev main_c_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_c_11 : Ref sig .tc := ⟨.hbm, 81, rfl⟩
abbrev main_v58 : Ref sig .tc := ⟨.hbm, 82, rfl⟩
abbrev main_v59 : Ref sig .tc := ⟨.hbm, 83, rfl⟩
abbrev main_c_12 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_c_13 : Ref sig .tc := ⟨.hbm, 91, rfl⟩
abbrev main_v66 : Ref sig .tc := ⟨.hbm, 92, rfl⟩
abbrev main_v67 : Ref sig .tc := ⟨.hbm, 93, rfl⟩
abbrev main_c_14 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_cst_15 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_call1_cst : Ref sig .tc := ⟨.hbm, 114, rfl⟩
abbrev main_call1_v0 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_cst_16 : Ref sig .tc := ⟨.hbm, 123, rfl⟩
abbrev main_v93 : Ref sig .tc := ⟨.hbm, 124, rfl⟩
abbrev main_v94 : Ref sig .tc := ⟨.hbm, 125, rfl⟩
abbrev main_cst_17 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  shapeCasts_S100000x1_S100000 : S100000x1.ShapeCasts S100000
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x1_S100000x1_1_0_0_1_n_n_wf : DotDims.WF S100000x128 S128x1 S100000x1 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf

class Facts : Prop extends Facts₀ where

variable [Facts]
-- ==== Proof.Spec.lean ====
/-
  The three dense stages of the two-layer graph convolution, as functions of whole arrays, index by index, on the
  extended reals.

  Write `s i` for the inverse square root of node `i`'s degree (a column `[100000, 1]`), `hs` for a node-scaled
  feature table and `seg` for the sum of the scaled rows of a node's in-neighbours.

  * `lin0 x W s`: row `i` of `x · W`, scaled by `s i`.
  * `act s seg hs b`: the combined activation `max (s i · (seg i k + hs i k) + b k) 0` of node `i`, feature `k`.
  * `lin1 hs seg s b W`: row `i` of `act · W`, scaled by `s i`.
  * `lin2 hs seg s b w c`: the logistic function of `act i · w + c`.
-/
import Idealize.ShloMosaic.PureOps.Ideal
import Idealize.ShloMosaic.Lib.ValueIdx

noncomputable section

open scoped BigOperators

namespace Cert.Spec

open Idealize.ShloMosaic Idealize.ShloMosaic.ValueIdx

/-- Node features `[100000, 128]`. -/
abbrev Feat : Shape := ⟨2, ![100000, 128]⟩
/-- A per-node column `[100000, 1]`. -/
abbrev Col : Shape := ⟨2, ![100000, 1]⟩
/-- A square weight `[128, 128]`. -/
abbrev Wt : Shape := ⟨2, ![128, 128]⟩
/-- A bias row `[1, 128]`. -/
abbrev Row : Shape := ⟨2, ![1, 128]⟩
/-- The projection weight `[128, 1]`. -/
abbrev WCol : Shape := ⟨2, ![128, 1]⟩
/-- The projection bias `[1, 1]`. -/
abbrev One : Shape := ⟨2, ![1, 1]⟩

/-- `(x · W) i d · s i`: a row of the product, scaled by its node's factor. -/
def lin0 (x : Feat.Idx → EReal) (W : Wt.Idx → EReal) (s : Col.Idx → EReal) : Feat.Idx → EReal :=
  fun j => (∑ k : Fin 128, x (ix2 (j 0) k) * W (ix2 k (j 1))) * s (ix2 (j 0) (0 : Fin 1))

/-- The combined activation of node `i`, feature `k`: `max (s i · (seg i k + hs i k) + b k) 0`. -/
def act (s : Col.Idx → EReal) (seg hs : Feat.Idx → EReal) (b : Row.Idx → EReal) (i : Fin 100000) (k : Fin 128) : EReal :=
  max (s (ix2 i (0 : Fin 1)) * (seg (ix2 i k) + hs (ix2 i k)) + b (ix2 (0 : Fin 1) k)) 0

/-- `(act · W) i d · s i`. -/
def lin1 (hs seg : Feat.Idx → EReal) (s : Col.Idx → EReal) (b : Row.Idx → EReal) (W : Wt.Idx → EReal) : Feat.Idx → EReal :=
  fun j => (∑ k : Fin 128, act s seg hs b (j 0) k * W (ix2 k (j 1))) * s (ix2 (j 0) (0 : Fin 1))

/-- The logistic function of `act i · w + c`. -/
def lin2 (hs seg : Feat.Idx → EReal) (s : Col.Idx → EReal) (b : Row.Idx → EReal) (w : WCol.Idx → EReal)
    (c : One.Idx → EReal) : Col.Idx → EReal :=
  fun j => Ideal.logistic ((∑ k : Fin 128, act s seg hs b (j 0) k * w (ix2 k (0 : Fin 1))) + c (ix2 (0 : Fin 1) (0 : Fin 1)))

end Cert.Spec

end
-- ==== Proof.RegionOps.lean ====
/-
  Reading a block-level value at an index: the broadcasts of a column, a row and a cell to a block, and the two
  contractions (a block of 5000 rows times a square weight, and times a projection column) into a zero accumulator,
  each as the plain sum over the 128 contracted coordinates. Everything is stated on the extended reals.
-/
import proofs.«149404_j2456721293532_2_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.RegionValue

open Cert.KernelIdeal Cert.KernelIdeal.Gen Idealize.ShloMosaic Idealize.ShloMosaic.ValueIdx

/-- The zero offsets, spelt as a constant function. -/
theorem hz : (![0, 0] : Fin 2 → Nat) = fun _ => 0 := funext fun a => by fin_cases a <;> rfl

/-! ## Broadcasts read at an index -/

/-- A column broadcast along the features: entry `(p, q)` is the column's entry `p`. -/
theorem bcast_col_apply (x : FVec Ideal S5000x1 .f32) (p : Fin 5000) (q : Fin 128) :
    broadcastTo S5000x128 x broadcasts_S5000x1_S5000x128 (ix2 p q) = x (ix2 p (0 : Fin 1)) := by
  refine broadcastTo_apply x _ (ix2 p q) (ix2 p (0 : Fin 1)) (fun a => ?_)
  match a with
  | ⟨0, _⟩ => rfl
  | ⟨1, _⟩ => rfl

/-- A row broadcast along the nodes: entry `(p, q)` is the row's entry `q`. -/
theorem bcast_row_apply (x : FVec Ideal S1x128 .f32) (p : Fin 5000) (q : Fin 128) :
    broadcastTo S5000x128 x broadcasts_S1x128_S5000x128 (ix2 p q) = x (ix2 (0 : Fin 1) q) := by
  refine broadcastTo_apply x _ (ix2 p q) (ix2 (0 : Fin 1) q) (fun a => ?_)
  match a with
  | ⟨0, _⟩ => rfl
  | ⟨1, _⟩ => rfl

/-- A single cell broadcast to a column: every entry is the cell. -/
theorem bcast_cell_apply (x : FVec Ideal S1x1 .f32) (p : Fin 5000) (q : Fin 1) :
    broadcastTo S5000x1 x broadcasts_S1x1_S5000x1 (ix2 p q) = x (ix2 (0 : Fin 1) (0 : Fin 1)) := by
  refine broadcastTo_apply x _ (ix2 p q) (ix2 (0 : Fin 1) (0 : Fin 1)) (fun a => ?_)
  match a with
  | ⟨0, _⟩ => rfl
  | ⟨1, _⟩ => rfl

/-! ## The contraction against a square weight -/

/-- The dimension numbers of a block times a square weight: contract the block's features with the weight's rows. -/
abbrev DW := dot_S5000x128_S128x128_S5000x128_1_0_0_1_n_n

theorem lhsW_0 (i : S5000x128.Idx) (k : DW.contr.Idx) : (DW.lhsIdx i k 0).val = (i 0).val := by
  unfold DotDims.lhsIdx
  rw [dif_neg (show ¬(0 : Fin S5000x128.rank) ∈ DW.lhsBatch by decide), dif_pos (show (0 : Fin S5000x128.rank) ∈ DW.lhsNonContracting by decide)]
  rfl
theorem lhsW_1 (i : S5000x128.Idx) (k : DW.contr.Idx) : (DW.lhsIdx i k 1).val = (k ⟨0, by decide⟩).val :=
  DW.lhsIdx_val_of_single rfl i k
theorem rhsW_0 (i : S5000x128.Idx) (k : DW.contr.Idx) : (DW.rhsIdx i k 0).val = (k ⟨0, by decide⟩).val :=
  DW.rhsIdx_val_of_single rfl i k
theorem rhsW_1 (i : S5000x128.Idx) (k : DW.contr.Idx) : (DW.rhsIdx i k 1).val = (i 1).val := by
  unfold DotDims.rhsIdx
  rw [dif_neg (show ¬(1 : Fin S128x128.rank) ∈ DW.rhsBatch by decide), dif_pos (show (1 : Fin S128x128.rank) ∈ DW.rhsNonContracting by decide)]
  rfl

/-- Entry `(p, q)` of a block times a square weight, accumulated from zero: the sum over the contracted coordinate. -/
theorem matmulW_apply (a : FVec Ideal S5000x128 .bf16) (b : FVec Ideal S128x128 .bf16) (p : Fin 5000) (q : Fin 128) :
    matmul DW none a b (constant (F := Ideal) S5000x128 .f32 0x00000000#32) (ix2 p q)
      = ∑ k : Fin 128, a (ix2 p k) * b (ix2 k q) := by
  simp only [matmul]
  rw [Ideal.matmul_constant_zero_apply, ← Equiv.sum_comp (contrEquiv1 DW 128 rfl rfl).symm]
  refine Finset.sum_congr rfl fun k _ => ?_
  have hk := contrEquiv1_symm_val DW 128 rfl rfl k
  have el : DW.lhsIdx (ix2 p q) ((contrEquiv1 DW 128 rfl rfl).symm k) = ix2 p k := funext fun a => Fin.ext (by
    match a with
    | ⟨0, _⟩ => exact lhsW_0 _ _
    | ⟨1, _⟩ => exact (lhsW_1 _ _).trans hk)
  have er : DW.rhsIdx (ix2 p q) ((contrEquiv1 DW 128 rfl rfl).symm k) = ix2 k q := funext fun a => Fin.ext (by
    match a with
    | ⟨0, _⟩ => exact (rhsW_0 _ _).trans hk
    | ⟨1, _⟩ => exact rhsW_1 _ _)
  rw [el, er]

/-! ## The contraction against a projection column -/

/-- The dimension numbers of a block times a projection column. -/
abbrev DP := dot_S5000x128_S128x1_S5000x1_1_0_0_1_n_n

theorem lhsP_0 (i : S5000x1.Idx) (k : DP.contr.Idx) : (DP.lhsIdx i k 0).val = (i 0).val := by
  unfold DotDims.lhsIdx
  rw [dif_neg (show ¬(0 : Fin S5000x128.rank) ∈ DP.lhsBatch by decide), dif_pos (show (0 : Fin S5000x128.rank) ∈ DP.lhsNonContracting by decide)]
  rfl
theorem lhsP_1 (i : S5000x1.Idx) (k : DP.contr.Idx) : (DP.lhsIdx i k 1).val = (k ⟨0, by decide⟩).val :=
  DP.lhsIdx_val_of_single rfl i k
theorem rhsP_0 (i : S5000x1.Idx) (k : DP.contr.Idx) : (DP.rhsIdx i k 0).val = (k ⟨0, by decide⟩).val :=
  DP.rhsIdx_val_of_single rfl i k
theorem rhsP_1 (i : S5000x1.Idx) (k : DP.contr.Idx) : (DP.rhsIdx i k 1).val = (i 1).val := by
  unfold DotDims.rhsIdx
  rw [dif_neg (show ¬(1 : Fin S128x1.rank) ∈ DP.rhsBatch by decide), dif_pos (show (1 : Fin S128x1.rank) ∈ DP.rhsNonContracting by decide)]
  rfl

/-- Entry `(p, q)` of a block times a projection column, accumulated from zero. -/
theorem matmulP_apply (a : FVec Ideal S5000x128 .bf16) (b : FVec Ideal S128x1 .bf16) (p : Fin 5000) (q : Fin 1) :
    matmul DP none a b (constant (F := Ideal) S5000x1 .f32 0x00000000#32) (ix2 p q)
      = ∑ k : Fin 128, a (ix2 p k) * b (ix2 k q) := by
  simp only [matmul]
  rw [Ideal.matmul_constant_zero_apply, ← Equiv.sum_comp (contrEquiv1 DP 128 rfl rfl).symm]
  refine Finset.sum_congr rfl fun k _ => ?_
  have hk := contrEquiv1_symm_val DP 128 rfl rfl k
  have el : DP.lhsIdx (ix2 p q) ((contrEquiv1 DP 128 rfl rfl).symm k) = ix2 p k := funext fun a => Fin.ext (by
    match a with
    | ⟨0, _⟩ => exact lhsP_0 _ _
    | ⟨1, _⟩ => exact (lhsP_1 _ _).trans hk)
  have er : DP.rhsIdx (ix2 p q) ((contrEquiv1 DP 128 rfl rfl).symm k) = ix2 k q := funext fun a => Fin.ext (by
    match a with
    | ⟨0, _⟩ => exact (rhsP_0 _ _).trans hk
    | ⟨1, _⟩ => exact rhsP_1 _ _)
  rw [el, er]

end Cert.KernelIdeal.RegionValue

end
-- ==== Proof.Region0.lean ====
/-
  The first dense stage, from blocks to the whole array: after its 20 grid points the output array holds, at every
  index, the row of the features times the weight, scaled by the node's factor.
-/
import proofs.«149404_j2456721293532_2_alg».proof.Proof.Gen.KernelIdeal.Frame
import proofs.«149404_j2456721293532_2_alg».proof.Proof.Spec
import proofs.«149404_j2456721293532_2_alg».proof.Proof.RegionOps

set_option maxRecDepth 16384

noncomputable section

open scoped BigOperators

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## The payload at an index -/

/-- Entry `(p, q)` of what a point stores: the block's row `p` times the weight's column `q`, scaled by the
    column's entry `p` (the roundings to the narrower format are the identity on the extended reals). -/
theorem pay0_apply (v0 : Vec Ideal S5000x128 .f32) (v2 : Vec Ideal S128x128 .f32) (v5 : Vec Ideal S5000x1 .f32)
    (p : Fin 5000) (q : Fin 128) :
    k0_pay1 (F := Ideal) v0 v2 v5 (ix2 p q)
      = (∑ k : Fin 128, v0 (ix2 p k) * v2 (ix2 k q)) * v5 (ix2 p (0 : Fin 1)) := by
  unfold k0_pay1
  simp only [shapeCast_self]
  rw [mulf_apply, bcast_col_apply, matmulW_apply]
  rfl

/-- The same at any index of the block, through its two coordinates. -/
theorem pay0_apply' (v0 : Vec Ideal S5000x128 .f32) (v2 : Vec Ideal S128x128 .f32) (v5 : Vec Ideal S5000x1 .f32)
    (j : S5000x128.Idx) :
    k0_pay1 (F := Ideal) v0 v2 v5 j
      = (∑ k : Fin 128, v0 (ix2 (j 0) k) * v2 (ix2 k (j 1))) * v5 (ix2 (j 0) (0 : Fin 1)) :=
  (congrArg (k0_pay1 (F := Ideal) v0 v2 v5) (eq_ix2 j)).trans (pay0_apply v0 v2 v5 (j 0) (j 1))

/-! ## The index maps over the grid -/

/-- The printed index maps, decided over the 20 points: the feature and column blocks move with the output's,
    the weight's block stays, and no block has a second coordinate. -/
theorem idx_facts0 : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = win0_3.index t (0 : Fin 2) ∧ win0_2.index t (1 : Fin 2) = 0
    ∧ win0_3.index t (0 : Fin 2) ≤ 19 ∧ win0_3.index t (1 : Fin 2) = 0 :=
  (by decide +kernel : ∀ t : Fin grid0.N, _)

/-- Every block row is some point's. -/
theorem idx_onto0 : ∀ (q0 : Fin 20), ∃ t : Fin cfg0.N, win0_3.index t = ![q0.val, 0] :=
  (by decide +kernel : ∀ (q0 : Fin 20), ∃ t : Fin grid0.N, win0_3.index t = ![q0.val, 0])

/-! ## What a point writes back -/

/-- What point `t` writes back is block `t` of `lin0` of the arrays as the stage finds them. -/
theorem flushed0_eq (c : Dev nD) (t : Fin cfg0.N) :
    (dat0 (F := Ideal) V c).flushed 3 t
      = ((cfg0.win 3).blk t).view.read (Elt Ideal) (Cert.Spec.lin0 (V c main_arg0) (V c main_arg2) (V c main_v11)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz, View.ld_unit_zero (S := S5000x1) hz]
  obtain ⟨e0, e1, e2, e3, e4, e5, e6, e7⟩ := idx_facts0 t
  funext j
  show k0_pay1 (F := Ideal) (iblk0 V c 0 t) (iblk0 V c 1 t) (iblk0 V c 2 t) j
    = Cert.Spec.lin0 (V c main_arg0) (V c main_arg2) (V c main_v11) (((cfg0.win 3).blk t).view.emb j)
  refine (pay0_apply' _ _ _ j).trans ?_
  unfold Cert.Spec.lin0
  have hj0 : (j 0).val < 5000 := (j 0).isLt
  have hj1 : (j 1).val < 128 := (j 1).isLt
  have h0 : ∀ k : Fin 128, ((cfg0.win 0).blk t).view.emb (ix2 (j 0) k) = ix2 ((((cfg0.win 3).blk t).view.emb j) 0) k := by
    intro k; funext a; apply Fin.ext
    match a with
    | ⟨0, _⟩ => show win0_0.index t (0 : Fin 2) * 5000 + 1 * (j 0).val = win0_3.index t (0 : Fin 2) * 5000 + 1 * (j 0).val; omega
    | ⟨1, _⟩ => show win0_0.index t (1 : Fin 2) * 128 + 1 * k.val = k.val; omega
  have h1 : ∀ k : Fin 128, ((cfg0.win 1).blk t).view.emb (ix2 k (j 1)) = ix2 k ((((cfg0.win 3).blk t).view.emb j) 1) := by
    intro k; funext a; apply Fin.ext
    match a with
    | ⟨0, _⟩ => show win0_1.index t (0 : Fin 2) * 128 + 1 * k.val = k.val; omega
    | ⟨1, _⟩ => show win0_1.index t (1 : Fin 2) * 128 + 1 * (j 1).val = win0_3.index t (1 : Fin 2) * 128 + 1 * (j 1).val; omega
  have h2 : ((cfg0.win 2).blk t).view.emb (ix2 (j 0) (0 : Fin 1)) = ix2 ((((cfg0.win 3).blk t).view.emb j) 0) (0 : Fin 1) := by
    funext a; apply Fin.ext
    match a with
    | ⟨0, _⟩ => show win0_2.index t (0 : Fin 2) * 5000 + 1 * (j 0).val = win0_3.index t (0 : Fin 2) * 5000 + 1 * (j 0).val; omega
    | ⟨1, _⟩ => show win0_2.index t (1 : Fin 2) * 1 + 1 * 0 = 0; omega
  have f0 : ∀ k : Fin 128, iblk0 V c 0 t (ix2 (j 0) k) = V c main_arg0 (ix2 ((((cfg0.win 3).blk t).view.emb j) 0) k) := fun k => by
    show V c main_arg0 (((cfg0.win 0).blk t).view.emb (ix2 (j 0) k)) = _
    rw [h0]; rfl
  have f1 : ∀ k : Fin 128, iblk0 V c 1 t (ix2 k (j 1)) = V c main_arg2 (ix2 k ((((cfg0.win 3).blk t).view.emb j) 1)) := fun k => by
    show V c main_arg2 (((cfg0.win 1).blk t).view.emb (ix2 k (j 1))) = _
    rw [h1]; rfl
  have f2 : iblk0 V c 2 t (ix2 (j 0) (0 : Fin 1)) = V c main_v11 (ix2 ((((cfg0.win 3).blk t).view.emb j) 0) (0 : Fin 1)) := by
    show V c main_v11 (((cfg0.win 2).blk t).view.emb (ix2 (j 0) (0 : Fin 1))) = _
    rw [h2]; rfl
  rw [f2]
  simp only [f0, f1]

/-! ## The blocks cover the array -/

/-- An index of the array is in point `t`'s block iff each coordinate is in the block's range on its axis. -/
theorem mem_blk0 (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v15).slice (win0_3.rect t)).set ↔ _
  rw [View.set_slice_whole, Rect.mem_set_unit]
  exact Iff.rfl

/-- Every index of the array is in the block of the point whose block row is the index's row divided by 5000. -/
theorem cover0 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ := idx_onto0 ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk0]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-! ## The whole array -/

/-- After the stage's 20 points the output array is `lin0` of the arrays as the stage finds them. -/
theorem final0 (c : Dev nD) :
    (dat0 (F := Ideal) V c).arrAt 3 cfg0.N = Cert.Spec.lin0 (V c main_arg0) (V c main_arg2) (V c main_v11) :=
  (dat0 (F := Ideal) V c).arrAt_eq_of_cover 3 _ (fun t _ => flushed0_eq V c t) (cover0)

end Cert.KernelIdeal.RegionValue

end
-- ==== Proof.Region1.lean ====
/-
  The second dense stage, from blocks to the whole array: after its 20 grid points the output array holds, at every
  index, the row of the combined activation times the weight, scaled by the node's factor.
-/
import proofs.«149404_j2456721293532_2_alg».proof.Proof.Gen.KernelIdeal.Frame
import proofs.«149404_j2456721293532_2_alg».proof.Proof.Spec
import proofs.«149404_j2456721293532_2_alg».proof.Proof.RegionOps

set_option maxRecDepth 16384

noncomputable section

open scoped BigOperators

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## The payload at an index -/

/-- Entry `(p, q)` of what a point stores: row `p` of the activation `max (s · (seg + hs) + b) 0` of the blocks, times
    the weight's column `q`, scaled by the column's entry `p`. -/
theorem pay1_apply (v0 v2 : Vec Ideal S5000x128 .f32) (v4 : Vec Ideal S5000x1 .f32) (v8 : Vec Ideal S1x128 .f32)
    (v18 : Vec Ideal S128x128 .f32) (p : Fin 5000) (q : Fin 128) :
    k1_pay1 (F := Ideal) v0 v2 v4 v8 v18 (ix2 p q)
      = (∑ k : Fin 128, max (v4 (ix2 p (0 : Fin 1)) * (v2 (ix2 p k) + v0 (ix2 p k)) + v8 (ix2 (0 : Fin 1) k)) 0 * v18 (ix2 k q))
          * v4 (ix2 p (0 : Fin 1)) := by
  unfold k1_pay1
  simp only [shapeCast_self]
  rw [mulf_apply, bcast_col_apply, matmulW_apply]
  refine congrArg (· * _) (Finset.sum_congr rfl fun k _ => ?_)
  rw [truncf_apply, truncf_apply, maximumf_apply, addf_apply, mulf_apply, addf_apply, bcast_col_apply, bcast_row_apply,
    broadcast_apply]
  show max _ (Ideal.ofBits .f32 0x00000000#32) * _ = _
  rw [Ideal.ofBits_zero_f32]

/-- The same at any index of the block, through its two coordinates. -/
theorem pay1_apply' (v0 v2 : Vec Ideal S5000x128 .f32) (v4 : Vec Ideal S5000x1 .f32) (v8 : Vec Ideal S1x128 .f32)
    (v18 : Vec Ideal S128x128 .f32) (j : S5000x128.Idx) :
    k1_pay1 (F := Ideal) v0 v2 v4 v8 v18 j
      = (∑ k : Fin 128, max (v4 (ix2 (j 0) (0 : Fin 1)) * (v2 (ix2 (j 0) k) + v0 (ix2 (j 0) k)) + v8 (ix2 (0 : Fin 1) k)) 0 * v18 (ix2 k (j 1)))
          * v4 (ix2 (j 0) (0 : Fin 1)) :=
  (congrArg (k1_pay1 (F := Ideal) v0 v2 v4 v8 v18) (eq_ix2 j)).trans (pay1_apply v0 v2 v4 v8 v18 (j 0) (j 1))

/-! ## The index maps over the grid -/

/-- The printed index maps, decided over the 20 points: the two feature blocks and the column block move with the
    output's, the bias row and the weight stay, and no block has a second coordinate. -/
theorem idx_facts1 : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = win1_5.index t (0 : Fin 2) ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) ≤ 19 ∧ win1_5.index t (1 : Fin 2) = 0 :=
  (by decide +kernel : ∀ t : Fin grid1.N, _)

/-- Every block row is some point's. -/
theorem idx_onto1 : ∀ (q0 : Fin 20), ∃ t : Fin cfg1.N, win1_5.index t = ![q0.val, 0] :=
  (by decide +kernel : ∀ (q0 : Fin 20), ∃ t : Fin grid1.N, win1_5.index t = ![q0.val, 0])

/-! ## What a point writes back -/

/-- What point `t` writes back is block `t` of `lin1` of the arrays as the stage finds them. -/
theorem flushed1_eq (c : Dev nD) (t : Fin cfg1.N) :
    (dat1 (F := Ideal) V c).flushed 5 t
      = ((cfg1.win 5).blk t).view.read (Elt Ideal)
          (Cert.Spec.lin1 (V c main_v15) (V c main_v25) (V c main_v11) (V c main_v12) (V c main_arg4)) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S5000x1) hz,
    View.ld_unit_zero (S := S1x128) hz]
  obtain ⟨e0, e1, e2, e3, e4, e5, e6, e7, e8, e9, e10, e11⟩ := idx_facts1 t
  funext j
  show k1_pay1 (F := Ideal) (iblk1 V c 0 t) (iblk1 V c 1 t) (iblk1 V c 2 t) (iblk1 V c 3 t) (iblk1 V c 4 t) j
    = Cert.Spec.lin1 (V c main_v15) (V c main_v25) (V c main_v11) (V c main_v12) (V c main_arg4) (((cfg1.win 5).blk t).view.emb j)
  refine (pay1_apply' _ _ _ _ _ j).trans ?_
  unfold Cert.Spec.lin1 Cert.Spec.act
  have hj0 : (j 0).val < 5000 := (j 0).isLt
  have hj1 : (j 1).val < 128 := (j 1).isLt
  have h0 : ∀ k : Fin 128, ((cfg1.win 0).blk t).view.emb (ix2 (j 0) k) = ix2 ((((cfg1.win 5).blk t).view.emb j) 0) k := by
    intro k; funext a; apply Fin.ext
    match a with
    | ⟨0, _⟩ => show win1_0.index t (0 : Fin 2) * 5000 + 1 * (j 0).val = win1_5.index t (0 : Fin 2) * 5000 + 1 * (j 0).val; omega
    | ⟨1, _⟩ => show win1_0.index t (1 : Fin 2) * 128 + 1 * k.val = k.val; omega
  have h1 : ∀ k : Fin 128, ((cfg1.win 1).blk t).view.emb (ix2 (j 0) k) = ix2 ((((cfg1.win 5).blk t).view.emb j) 0) k := by
    intro k; funext a; apply Fin.ext
    match a with
    | ⟨0, _⟩ => show win1_1.index t (0 : Fin 2) * 5000 + 1 * (j 0).val = win1_5.index t (0 : Fin 2) * 5000 + 1 * (j 0).val; omega
    | ⟨1, _⟩ => show win1_1.index t (1 : Fin 2) * 128 + 1 * k.val = k.val; omega
  have h2 : ((cfg1.win 2).blk t).view.emb (ix2 (j 0) (0 : Fin 1)) = ix2 ((((cfg1.win 5).blk t).view.emb j) 0) (0 : Fin 1) := by
    funext a; apply Fin.ext
    match a with
    | ⟨0, _⟩ => show win1_2.index t (0 : Fin 2) * 5000 + 1 * (j 0).val = win1_5.index t (0 : Fin 2) * 5000 + 1 * (j 0).val; omega
    | ⟨1, _⟩ => show win1_2.index t (1 : Fin 2) * 1 + 1 * 0 = 0; omega
  have h3 : ∀ k : Fin 128, ((cfg1.win 3).blk t).view.emb (ix2 (0 : Fin 1) k) = ix2 (0 : Fin 1) k := by
    intro k; funext a; apply Fin.ext
    match a with
    | ⟨0, _⟩ => show win1_3.index t (0 : Fin 2) * 1 + 1 * 0 = 0; omega
    | ⟨1, _⟩ => show win1_3.index t (1 : Fin 2) * 128 + 1 * k.val = k.val; omega
  have h4 : ∀ k : Fin 128, ((cfg1.win 4).blk t).view.emb (ix2 k (j 1)) = ix2 k ((((cfg1.win 5).blk t).view.emb j) 1) := by
    intro k; funext a; apply Fin.ext
    match a with
    | ⟨0, _⟩ => show win1_4.index t (0 : Fin 2) * 128 + 1 * k.val = k.val; omega
    | ⟨1, _⟩ => show win1_4.index t (1 : Fin 2) * 128 + 1 * (j 1).val = win1_5.index t (1 : Fin 2) * 128 + 1 * (j 1).val; omega
  have f0 : ∀ k : Fin 128, iblk1 V c 0 t (ix2 (j 0) k) = V c main_v15 (ix2 ((((cfg1.win 5).blk t).view.emb j) 0) k) := fun k => by
    show V c main_v15 (((cfg1.win 0).blk t).view.emb (ix2 (j 0) k)) = _
    rw [h0]; rfl
  have f1 : ∀ k : Fin 128, iblk1 V c 1 t (ix2 (j 0) k) = V c main_v25 (ix2 ((((cfg1.win 5).blk t).view.emb j) 0) k) := fun k => by
    show V c main_v25 (((cfg1.win 1).blk t).view.emb (ix2 (j 0) k)) = _
    rw [h1]; rfl
  have f2 : iblk1 V c 2 t (ix2 (j 0) (0 : Fin 1)) = V c main_v11 (ix2 ((((cfg1.win 5).blk t).view.emb j) 0) (0 : Fin 1)) := by
    show V c main_v11 (((cfg1.win 2).blk t).view.emb (ix2 (j 0) (0 : Fin 1))) = _
    rw [h2]; rfl
  have f3 : ∀ k : Fin 128, iblk1 V c 3 t (ix2 (0 : Fin 1) k) = V c main_v12 (ix2 (0 : Fin 1) k) := fun k => by
    show V c main_v12 (((cfg1.win 3).blk t).view.emb (ix2 (0 : Fin 1) k)) = _
    rw [h3]
  have f4 : ∀ k : Fin 128, iblk1 V c 4 t (ix2 k (j 1)) = V c main_arg4 (ix2 k ((((cfg1.win 5).blk t).view.emb j) 1)) := fun k => by
    show V c main_arg4 (((cfg1.win 4).blk t).view.emb (ix2 k (j 1))) = _
    rw [h4]; rfl
  rw [f2]
  simp only [f0, f1, f3, f4]

/-! ## The blocks cover the array -/

/-- An index of the array is in point `t`'s block iff each coordinate is in the block's range on its axis. -/
theorem mem_blk1 (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v26).slice (win1_5.rect t)).set ↔ _
  rw [View.set_slice_whole, Rect.mem_set_unit]
  exact Iff.rfl

/-- Every index of the array is in the block of the point whose block row is the index's row divided by 5000. -/
theorem cover1 (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  obtain ⟨t, ht⟩ := idx_onto1 ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk1]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-! ## The whole array -/

/-- After the stage's 20 points the output array is `lin1` of the arrays as the stage finds them. -/
theorem final1 (c : Dev nD) :
    (dat1 (F := Ideal) V c).arrAt 5 cfg1.N
      = Cert.Spec.lin1 (V c main_v15) (V c main_v25) (V c main_v11) (V c main_v12) (V c main_arg4) :=
  (dat1 (F := Ideal) V c).arrAt_eq_of_cover 5 _ (fun t _ => flushed1_eq V c t) (cover1)

end Cert.KernelIdeal.RegionValue

end
-- ==== Proof.Region2.lean ====
/-
  The third dense stage, from blocks to the whole array: after its 20 grid points the output column holds, at every
  node, the logistic function of the combined activation's row times the projection weight, plus the projection bias.
-/
import proofs.«149404_j2456721293532_2_alg».proof.Proof.Gen.KernelIdeal.Frame
import proofs.«149404_j2456721293532_2_alg».proof.Proof.Spec
import proofs.«149404_j2456721293532_2_alg».proof.Proof.RegionOps

set_option maxRecDepth 16384

noncomputable section

open scoped BigOperators

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## The payload at an index -/

/-- The logistic function of a column, entry by entry. -/
theorem logistic_col_apply (x : FVec Ideal S5000x1 .f32) (i : S5000x1.Idx) : logistic x i = Ideal.logistic (x i) := rfl

/-- Entry `(p, q)` of what a point stores: the logistic function of row `p` of the activation
    `max (s · (seg + hs) + b) 0` of the blocks times the projection column, plus the bias cell. -/
theorem pay2_apply (v0 v2 : Vec Ideal S5000x128 .f32) (v4 : Vec Ideal S5000x1 .f32) (v8 : Vec Ideal S1x128 .f32)
    (v18 : Vec Ideal S128x1 .f32) (v21 : Vec Ideal S1x1 .f32) (p : Fin 5000) (q : Fin 1) :
    k2_pay1 (F := Ideal) v0 v2 v4 v8 v18 v21 (ix2 p q)
      = Ideal.logistic ((∑ k : Fin 128, max (v4 (ix2 p (0 : Fin 1)) * (v2 (ix2 p k) + v0 (ix2 p k)) + v8 (ix2 (0 : Fin 1) k)) 0 * v18 (ix2 k q))
          + v21 (ix2 (0 : Fin 1) (0 : Fin 1))) := by
  unfold k2_pay1
  simp only [shapeCast_self]
  rw [logistic_col_apply, addf_apply, bcast_cell_apply, matmulP_apply]
  refine congrArg (fun z => Ideal.logistic (z + _)) (Finset.sum_congr rfl fun k _ => ?_)
  rw [truncf_apply, truncf_apply, maximumf_apply, addf_apply, mulf_apply, addf_apply, bcast_col_apply, bcast_row_apply,
    broadcast_apply]
  show max _ (Ideal.ofBits .f32 0x00000000#32) * _ = _
  rw [Ideal.ofBits_zero_f32]

/-- The same at any index of the block, through its two coordinates. -/
theorem pay2_apply' (v0 v2 : Vec Ideal S5000x128 .f32) (v4 : Vec Ideal S5000x1 .f32) (v8 : Vec Ideal S1x128 .f32)
    (v18 : Vec Ideal S128x1 .f32) (v21 : Vec Ideal S1x1 .f32) (j : S5000x1.Idx) :
    k2_pay1 (F := Ideal) v0 v2 v4 v8 v18 v21 j
      = Ideal.logistic ((∑ k : Fin 128, max (v4 (ix2 (j 0) (0 : Fin 1)) * (v2 (ix2 (j 0) k) + v0 (ix2 (j 0) k)) + v8 (ix2 (0 : Fin 1) k)) 0 * v18 (ix2 k (j 1)))
          + v21 (ix2 (0 : Fin 1) (0 : Fin 1))) :=
  (congrArg (k2_pay1 (F := Ideal) v0 v2 v4 v8 v18 v21) (eq_ix2 j)).trans (pay2_apply v0 v2 v4 v8 v18 v21 (j 0) (j 1))

/-! ## The index maps over the grid -/

/-- The printed index maps, decided over the 20 points: the two feature blocks and the column block move with the
    output's, the bias row, the projection column and the bias cell stay, and no block has a second coordinate. -/
theorem idx_facts2 : ∀ t : Fin cfg2.N,
    win2_0.index t (0 : Fin 2) = win2_6.index t (0 : Fin 2) ∧ win2_0.index t (1 : Fin 2) = 0
    ∧ win2_1.index t (0 : Fin 2) = win2_6.index t (0 : Fin 2) ∧ win2_1.index t (1 : Fin 2) = 0
    ∧ win2_2.index t (0 : Fin 2) = win2_6.index t (0 : Fin 2) ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) ≤ 19 ∧ win2_6.index t (1 : Fin 2) = 0 :=
  (by decide +kernel : ∀ t : Fin grid2.N, _)

/-- Every block row is some point's. -/
theorem idx_onto2 : ∀ (q0 : Fin 20), ∃ t : Fin cfg2.N, win2_6.index t = ![q0.val, 0] :=
  (by decide +kernel : ∀ (q0 : Fin 20), ∃ t : Fin grid2.N, win2_6.index t = ![q0.val, 0])

/-! ## What a point writes back -/

/-- What point `t` writes back is block `t` of `lin2` of the arrays as the stage finds them. -/
theorem flushed2_eq (c : Dev nD) (t : Fin cfg2.N) :
    (dat2 (F := Ideal) V c).flushed 6 t
      = ((cfg2.win 6).blk t).view.read (Elt Ideal)
          (Cert.Spec.lin2 (V c main_v26) (V c main_v36) (V c main_v11) (V c main_v13) (V c main_arg6) (V c main_v14)) := by
  show (cfg2.win 6).cut (grid2.coords t) ((dat2 V c).after 6 t) = _
  rw [after2_6]
  unfold out2_6
  rw [View.canon_unit_zero hz]
  simp only [View.ld_unit_zero (S := S5000x128) hz, View.ld_unit_zero (S := S128x1) hz, View.ld_unit_zero (S := S5000x1) hz,
    View.ld_unit_zero (S := S1x128) hz, View.ld_unit_zero (S := S1x1) hz]
  obtain ⟨e0, e1, e2, e3, e4, e5, e6, e7, e8, e9, e10, e11, e12, e13⟩ := idx_facts2 t
  funext j
  show k2_pay1 (F := Ideal) (iblk2 V c 0 t) (iblk2 V c 1 t) (iblk2 V c 2 t) (iblk2 V c 3 t) (iblk2 V c 4 t) (iblk2 V c 5 t) j
    = Cert.Spec.lin2 (V c main_v26) (V c main_v36) (V c main_v11) (V c main_v13) (V c main_arg6) (V c main_v14) (((cfg2.win 6).blk t).view.emb j)
  refine (pay2_apply' _ _ _ _ _ _ j).trans ?_
  unfold Cert.Spec.lin2 Cert.Spec.act
  have hj0 : (j 0).val < 5000 := (j 0).isLt
  have hj1 : (j 1).val < 1 := (j 1).isLt
  have h0 : ∀ k : Fin 128, ((cfg2.win 0).blk t).view.emb (ix2 (j 0) k) = ix2 ((((cfg2.win 6).blk t).view.emb j) 0) k := by
    intro k; funext a; apply Fin.ext
    match a with
    | ⟨0, _⟩ => show win2_0.index t (0 : Fin 2) * 5000 + 1 * (j 0).val = win2_6.index t (0 : Fin 2) * 5000 + 1 * (j 0).val; omega
    | ⟨1, _⟩ => show win2_0.index t (1 : Fin 2) * 128 + 1 * k.val = k.val; omega
  have h1 : ∀ k : Fin 128, ((cfg2.win 1).blk t).view.emb (ix2 (j 0) k) = ix2 ((((cfg2.win 6).blk t).view.emb j) 0) k := by
    intro k; funext a; apply Fin.ext
    match a with
    | ⟨0, _⟩ => show win2_1.index t (0 : Fin 2) * 5000 + 1 * (j 0).val = win2_6.index t (0 : Fin 2) * 5000 + 1 * (j 0).val; omega
    | ⟨1, _⟩ => show win2_1.index t (1 : Fin 2) * 128 + 1 * k.val = k.val; omega
  have h2 : ((cfg2.win 2).blk t).view.emb (ix2 (j 0) (0 : Fin 1)) = ix2 ((((cfg2.win 6).blk t).view.emb j) 0) (0 : Fin 1) := by
    funext a; apply Fin.ext
    match a with
    | ⟨0, _⟩ => show win2_2.index t (0 : Fin 2) * 5000 + 1 * (j 0).val = win2_6.index t (0 : Fin 2) * 5000 + 1 * (j 0).val; omega
    | ⟨1, _⟩ => show win2_2.index t (1 : Fin 2) * 1 + 1 * 0 = 0; omega
  have h3 : ∀ k : Fin 128, ((cfg2.win 3).blk t).view.emb (ix2 (0 : Fin 1) k) = ix2 (0 : Fin 1) k := by
    intro k; funext a; apply Fin.ext
    match a with
    | ⟨0, _⟩ => show win2_3.index t (0 : Fin 2) * 1 + 1 * 0 = 0; omega
    | ⟨1, _⟩ => show win2_3.index t (1 : Fin 2) * 128 + 1 * k.val = k.val; omega
  have h4 : ∀ k : Fin 128, ((cfg2.win 4).blk t).view.emb (ix2 k (j 1)) = ix2 k (0 : Fin 1) := by
    intro k; funext a; apply Fin.ext
    match a with
    | ⟨0, _⟩ => show win2_4.index t (0 : Fin 2) * 128 + 1 * k.val = k.val; omega
    | ⟨1, _⟩ => show win2_4.index t (1 : Fin 2) * 1 + 1 * (j 1).val = 0; omega
  have h5 : ((cfg2.win 5).blk t).view.emb (ix2 (0 : Fin 1) (0 : Fin 1)) = ix2 (0 : Fin 1) (0 : Fin 1) := by
    funext a; apply Fin.ext
    match a with
    | ⟨0, _⟩ => show win2_5.index t (0 : Fin 2) * 1 + 1 * 0 = 0; omega
    | ⟨1, _⟩ => show win2_5.index t (1 : Fin 2) * 1 + 1 * 0 = 0; omega
  have f0 : ∀ k : Fin 128, iblk2 V c 0 t (ix2 (j 0) k) = V c main_v26 (ix2 ((((cfg2.win 6).blk t).view.emb j) 0) k) := fun k => by
    show V c main_v26 (((cfg2.win 0).blk t).view.emb (ix2 (j 0) k)) = _
    rw [h0]; rfl
  have f1 : ∀ k : Fin 128, iblk2 V c 1 t (ix2 (j 0) k) = V c main_v36 (ix2 ((((cfg2.win 6).blk t).view.emb j) 0) k) := fun k => by
    show V c main_v36 (((cfg2.win 1).blk t).view.emb (ix2 (j 0) k)) = _
    rw [h1]; rfl
  have f2 : iblk2 V c 2 t (ix2 (j 0) (0 : Fin 1)) = V c main_v11 (ix2 ((((cfg2.win 6).blk t).view.emb j) 0) (0 : Fin 1)) := by
    show V c main_v11 (((cfg2.win 2).blk t).view.emb (ix2 (j 0) (0 : Fin 1))) = _
    rw [h2]; rfl
  have f3 : ∀ k : Fin 128, iblk2 V c 3 t (ix2 (0 : Fin 1) k) = V c main_v13 (ix2 (0 : Fin 1) k) := fun k => by
    show V c main_v13 (((cfg2.win 3).blk t).view.emb (ix2 (0 : Fin 1) k)) = _
    rw [h3]
  have f4 : ∀ k : Fin 128, iblk2 V c 4 t (ix2 k (j 1)) = V c main_arg6 (ix2 k (0 : Fin 1)) := fun k => by
    show V c main_arg6 (((cfg2.win 4).blk t).view.emb (ix2 k (j 1))) = _
    rw [h4]
  have f5 : iblk2 V c 5 t (ix2 (0 : Fin 1) (0 : Fin 1)) = V c main_v14 (ix2 (0 : Fin 1) (0 : Fin 1)) := by
    show V c main_v14 (((cfg2.win 5).blk t).view.emb (ix2 (0 : Fin 1) (0 : Fin 1))) = _
    rw [h5]
  rw [f5]
  simp only [f0, f1, f2, f3, f4]

/-! ## The blocks cover the array -/

/-- An index of the array is in point `t`'s block iff each coordinate is in the block's range on its axis. -/
theorem mem_blk2 (t : Fin cfg2.N) (i : S100000x1.Idx) :
    i ∈ ((cfg2.win 6).blk t).view.set ↔ ∀ a : Fin 2, win2_6.index t a * S5000x1.size a ≤ (i a).val ∧ (i a).val < win2_6.index t a * S5000x1.size a + S5000x1.size a := by
  show i ∈ ((View.whole main_v37).slice (win2_6.rect t)).set ↔ _
  rw [View.set_slice_whole, Rect.mem_set_unit]
  exact Iff.rfl

/-- Every index of the array is in the block of the point whose block row is the index's row divided by 5000. -/
theorem cover2 (i : S100000x1.Idx) :
    ∃ t : Fin cfg2.N, (cfg2.win 6).flush t = true ∧ i ∈ ((cfg2.win 6).blk t).view.set := by
  have hi0 : (i 0).val < 100000 := (i 0).isLt
  have hi1 : (i 1).val < 1 := (i 1).isLt
  obtain ⟨t, ht⟩ := idx_onto2 ⟨(i 0).val / 5000, by omega⟩
  have q0 : win2_6.index t (0 : Fin 2) = (i 0).val / 5000 := congrFun ht 0
  have q1 : win2_6.index t (1 : Fin 2) = 0 := congrFun ht 1
  refine ⟨t, flush2_6 t, ?_⟩
  rw [mem_blk2]
  intro a
  match a with
  | ⟨0, _⟩ => show win2_6.index t (0 : Fin 2) * 5000 ≤ (i 0).val ∧ (i 0).val < win2_6.index t (0 : Fin 2) * 5000 + 5000; omega
  | ⟨1, _⟩ => show win2_6.index t (1 : Fin 2) * 1 ≤ (i 1).val ∧ (i 1).val < win2_6.index t (1 : Fin 2) * 1 + 1; omega

/-! ## The whole array -/

/-- After the stage's 20 points the output column is `lin2` of the arrays as the stage finds them. -/
theorem final2 (c : Dev nD) :
    (dat2 (F := Ideal) V c).arrAt 6 cfg2.N
      = Cert.Spec.lin2 (V c main_v26) (V c main_v36) (V c main_v11) (V c main_v13) (V c main_arg6) (V c main_v14) :=
  (dat2 (F := Ideal) V c).arrAt_eq_of_cover 6 _ (fun t _ => flushed2_eq V c t) (cover2)

end Cert.KernelIdeal.RegionValue

end
-- ==== Proof.KTerm.lean ====
/-
  The kernel program's result as ONE term of its eight argument arrays, on the extended reals: the host operations
  around the three dense stages spelt as the program spells them (the edge list's two rows, the degree with a self
  loop as a scatter-add of ones, its inverse square root as a column, the bias rows, the row gather at the
  normalised source index followed by the scatter-add at the destination index), and the three dense stages as the
  whole-array functions `Cert.Spec.lin0`, `lin1`, `lin2`.
-/
import proofs.«149404_j2456721293532_2_alg».proof.KernelIdeal
import proofs.«149404_j2456721293532_2_alg».proof.Proof.Gen.KernelIdeal
import proofs.«149404_j2456721293532_2_alg».proof.Proof.Spec

noncomputable section

namespace Cert.KernelIdeal.Term

open Cert.KernelIdeal Cert.KernelIdeal.Facts₀ Idealize.ShloMosaic

/-- The edge list's first row: the source node of every edge. -/
def src (e : IVec S2x1600000 32) : IVec S1600000 32 :=
  shapeCast _ (extractStridedSlice S1x1600000 ![0, 0] e slices_S2x1600000_S1x1600000_0_0) shapeCasts_S1x1600000_S1600000

/-- The edge list's second row: the destination node of every edge. -/
def dst (e : IVec S2x1600000 32) : IVec S1600000 32 :=
  shapeCast _ (extractStridedSlice S1x1600000 ![1, 0] e slices_S2x1600000_S1x1600000_1_0) shapeCasts_S1x1600000_S1600000

/-- The destination index as a column of start indices. -/
def didx (e : IVec S2x1600000 32) : IVec S1600000x1 32 :=
  broadcastInDim S1600000x1 ![0] bcast_S1600000_S1600000x1_0 (dst e)

/-- The degree with a self loop: one plus the number of edges arriving at the node. -/
def deg (e : IVec S2x1600000 32) : FVec Ideal S100000 .f32 :=
  addf (broadcastInDim S100000 ![] bcast_S_S100000 (constant (F := Ideal) S_ .f32 0x3F800000#32))
    (Host.scatterAdd scatter_S100000_S1600000x1_S1600000_n_0_0_1
      (broadcastInDim S100000 ![] bcast_S_S100000 (constant (F := Ideal) S_ .f32 0x00000000#32)) (didx e)
      (broadcastInDim S1600000 ![] bcast_S_S1600000 (constant (F := Ideal) S_ .f32 0x3F800000#32)))

/-- The inverse square root of the degree. -/
def isd (e : IVec S2x1600000 32) : FVec Ideal S100000 .f32 :=
  Host.rsqrt (F := Ideal) (deg e)

/-- The same as a column `[100000, 1]`. -/
def isdCol (e : IVec S2x1600000 32) : FVec Ideal S100000x1 .f32 :=
  shapeCast _ (isd e) shapeCasts_S100000_S100000x1

/-- The source index with negative values wrapped once, as a column of start indices. -/
def sidx (e : IVec S2x1600000 32) : IVec S1600000x1 32 :=
  broadcastInDim S1600000x1 ![0] bcast_S1600000_S1600000x1_0
    (select (cmpi .slt (src e) (broadcastInDim S1600000 ![] bcast_S_S1600000 (constantI S_ 32 0#32)))
      (addi (src e) (broadcastInDim S1600000 ![] bcast_S_S1600000 (constantI S_ 32 100000#32))) (src e))

/-- The neighbour sum of a feature table: its rows gathered at the source index, added up at the destination index. -/
def seg (Y : FVec Ideal S100000x128 .f32) (e : IVec S2x1600000 32) :
    FVec Ideal S100000x128 .f32 :=
  Host.scatterAdd scatter_S100000x128_S1600000x1_S1600000x128_1_0_0_1
    (broadcastInDim S100000x128 ![] bcast_S_S100000x128 (constant (F := Ideal) S_ .f32 0x00000000#32)) (didx e)
    (Host.gather gather_S100000x128_S1600000x1_S1600000x128_1_0_n_n_0_1_1128 Y (sidx e))

/-- A bias vector as a row `[1, 128]`. -/
def row (b : FVec Ideal S128 .f32) : FVec Ideal S1x128 .f32 :=
  shapeCast _ b shapeCasts_S128_S1x128

/-- The projection bias as a cell `[1, 1]`. -/
def cell (b : FVec Ideal S1 .f32) : FVec Ideal S1x1 .f32 :=
  shapeCast _ b shapeCasts_S1_S1x1

variable (x : FVec Ideal S100000x128 .f32) (e : IVec S2x1600000 32)
  (W1 : FVec Ideal S128x128 .f32) (b1 : FVec Ideal S128 .f32)
  (W2 : FVec Ideal S128x128 .f32) (b2 : FVec Ideal S128 .f32)
  (Wo : FVec Ideal S128x1 .f32) (bo : FVec Ideal S1 .f32)

/-- The first dense stage's table: `(x · W1)` with every row scaled by its node's factor. -/
def y0 : FVec Ideal S100000x128 .f32 := Cert.Spec.lin0 x W1 (isdCol e)

/-- The second dense stage's table. -/
def y1 : FVec Ideal S100000x128 .f32 :=
  Cert.Spec.lin1 (y0 x e W1) (seg (y0 x e W1) e) (isdCol e) (row b1) W2

/-- The third dense stage's column. -/
def y2 : FVec Ideal S100000x1 .f32 :=
  Cert.Spec.lin2 (y1 x e W1 b1 W2) (seg (y1 x e W1 b1 W2) e) (isdCol e) (row b2) Wo (cell bo)

/-- The program's result: that column as a vector. -/
def out : FVec Ideal S100000 .f32 :=
  shapeCast _ (y2 x e W1 b1 W2 b2 Wo bo) shapeCasts_S100000x1_S100000

end Cert.KernelIdeal.Term

end
-- ==== Proof.KernelFold0.lean ====
/-
  The kernel program's buffer contents followed from the launch memory to the result: each buffer a later stage
  reads is named as a term of the eight argument arrays, one boundary at a time — a stretch of host operations
  either leaves a buffer alone or computes it from buffers already named, a dense stage leaves every buffer that
  is not its output alone and puts the whole-array function of its inputs in its output.
-/
import proofs.«149404_j2456721293532_2_alg».proof.Proof.Gen.KernelIdeal.Frame
import proofs.«149404_j2456721293532_2_alg».proof.Proof.KTerm

set_option maxRecDepth 16384

noncomputable section

namespace Cert.KernelIdeal.RunValue

open Cert.KernelIdeal Cert.KernelIdeal.Gen Cert.KernelIdeal.Facts₀
open Idealize.ShloMosaic Idealize.ShloMosaic.TcCoe Idealize.ShloMosaic.StableHlo

variable (m : (ℓ : Loc nD τ sig) → Buf (Elt Ideal) ℓ) (ρ : Dev nD → PrngReg)

/-- A buffer none of a stretch's operations writes holds after the stretch what it held before. -/
local macro "kept" ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

/-! ## After the first stretch: the edge list's rows, the degree's inverse square root, the bias rows -/

theorem W1_v1 (c : Dev nD) :
    W1 m ρ c (Proc.devRef .tc main_v1) = Term.src (m ((c : Thread nD τ).loc main_arg1)) := by
  show StableHlo.after hostOps0 (W0 m ρ c) (Proc.devRef .tc main_v1) = _
  after_results
  rfl

theorem W1_v3 (c : Dev nD) :
    W1 m ρ c (Proc.devRef .tc main_v3) = Term.dst (m ((c : Thread nD τ).loc main_arg1)) := by
  show StableHlo.after hostOps0 (W0 m ρ c) (Proc.devRef .tc main_v3) = _
  after_results
  rfl

theorem W1_v11 (c : Dev nD) :
    W1 m ρ c (Proc.devRef .tc main_v11) = Term.isdCol (m ((c : Thread nD τ).loc main_arg1)) := by
  show StableHlo.after hostOps0 (W0 m ρ c) (Proc.devRef .tc main_v11) = _
  after_results
  rfl

theorem W1_v12 (c : Dev nD) :
    W1 m ρ c (Proc.devRef .tc main_v12) = Term.row (m ((c : Thread nD τ).loc main_arg3)) := by
  show StableHlo.after hostOps0 (W0 m ρ c) (Proc.devRef .tc main_v12) = _
  after_results
  rfl

theorem W1_v13 (c : Dev nD) :
    W1 m ρ c (Proc.devRef .tc main_v13) = Term.row (m ((c : Thread nD τ).loc main_arg5)) := by
  show StableHlo.after hostOps0 (W0 m ρ c) (Proc.devRef .tc main_v13) = _
  after_results
  rfl

theorem W1_v14 (c : Dev nD) :
    W1 m ρ c (Proc.devRef .tc main_v14) = Term.cell (m ((c : Thread nD τ).loc main_arg7)) := by
  show StableHlo.after hostOps0 (W0 m ρ c) (Proc.devRef .tc main_v14) = _
  after_results
  rfl

theorem W1_arg0 (c : Dev nD) :
    W1 m ρ c (Proc.devRef .tc main_arg0) = m ((c : Thread nD τ).loc main_arg0) := by
  show StableHlo.after hostOps0 (W0 m ρ c) (Proc.devRef .tc main_arg0) = W0 m ρ c (Proc.devRef .tc main_arg0)
  kept hostOps0

theorem W1_arg2 (c : Dev nD) :
    W1 m ρ c (Proc.devRef .tc main_arg2) = m ((c : Thread nD τ).loc main_arg2) := by
  show StableHlo.after hostOps0 (W0 m ρ c) (Proc.devRef .tc main_arg2) = W0 m ρ c (Proc.devRef .tc main_arg2)
  kept hostOps0

theorem W1_arg4 (c : Dev nD) :
    W1 m ρ c (Proc.devRef .tc main_arg4) = m ((c : Thread nD τ).loc main_arg4) := by
  show StableHlo.after hostOps0 (W0 m ρ c) (Proc.devRef .tc main_arg4) = W0 m ρ c (Proc.devRef .tc main_arg4)
  kept hostOps0

theorem W1_arg6 (c : Dev nD) :
    W1 m ρ c (Proc.devRef .tc main_arg6) = m ((c : Thread nD τ).loc main_arg6) := by
  show StableHlo.after hostOps0 (W0 m ρ c) (Proc.devRef .tc main_arg6) = W0 m ρ c (Proc.devRef .tc main_arg6)
  kept hostOps0

/-! ## The three dense stages' outputs, as hypotheses

Each says: whatever the buffers hold when the stage is entered, the stage leaves in its output array the whole-array
function of its input arrays. -/

/-- The first dense stage: its output array is `lin0` of the features, the weight and the scale column. -/
def Final0 : Prop :=
  ∀ (V : (c : Dev nD) → (b : Ref sig .tc) → Buf (Elt Ideal) ((c : Thread nD τ).loc b)) (c : Dev nD),
    (dat0 (F := Ideal) V c).arrAt 3 cfg0.N = Cert.Spec.lin0 (V c main_arg0) (V c main_arg2) (V c main_v11)

/-- The second dense stage: its output array is `lin1` of the table, its neighbour sum, the scale column, the bias row
    and the weight. -/
def Final1 : Prop :=
  ∀ (V : (c : Dev nD) → (b : Ref sig .tc) → Buf (Elt Ideal) ((c : Thread nD τ).loc b)) (c : Dev nD),
    (dat1 (F := Ideal) V c).arrAt 5 cfg1.N
      = Cert.Spec.lin1 (V c main_v15) (V c main_v25) (V c main_v11) (V c main_v12) (V c main_arg4)

/-- The third dense stage: its output array is `lin2` of the table, its neighbour sum, the scale column, the bias row,
    the projection weight and the projection bias. -/
def Final2 : Prop :=
  ∀ (V : (c : Dev nD) → (b : Ref sig .tc) → Buf (Elt Ideal) ((c : Thread nD τ).loc b)) (c : Dev nD),
    (dat2 (F := Ideal) V c).arrAt 6 cfg2.N
      = Cert.Spec.lin2 (V c main_v26) (V c main_v36) (V c main_v11) (V c main_v13) (V c main_arg6) (V c main_v14)

/-! ## Through the first dense stage -/

theorem W2_v1 (c : Dev nD) :
    W2 m ρ c (Proc.devRef .tc main_v1) = Term.src (m ((c : Thread nD τ).loc main_arg1)) :=
  (W2_of_ne m ρ c main_v1 (by decide)).trans (W1_v1 m ρ c)

theorem W2_v3 (c : Dev nD) :
    W2 m ρ c (Proc.devRef .tc main_v3) = Term.dst (m ((c : Thread nD τ).loc main_arg1)) :=
  (W2_of_ne m ρ c main_v3 (by decide)).trans (W1_v3 m ρ c)

theorem W2_v11 (c : Dev nD) :
    W2 m ρ c (Proc.devRef .tc main_v11) = Term.isdCol (m ((c : Thread nD τ).loc main_arg1)) :=
  ((W2_arr m ρ c 2).trans (((dat0 (V1 m ρ) c).arrAt_in 2 rfl _).trans (A_eq0 (V1 m ρ) c 2))).trans (W1_v11 m ρ c)

theorem W2_v12 (c : Dev nD) :
    W2 m ρ c (Proc.devRef .tc main_v12) = Term.row (m ((c : Thread nD τ).loc main_arg3)) :=
  (W2_of_ne m ρ c main_v12 (by decide)).trans (W1_v12 m ρ c)

theorem W2_v13 (c : Dev nD) :
    W2 m ρ c (Proc.devRef .tc main_v13) = Term.row (m ((c : Thread nD τ).loc main_arg5)) :=
  (W2_of_ne m ρ c main_v13 (by decide)).trans (W1_v13 m ρ c)

theorem W2_v14 (c : Dev nD) :
    W2 m ρ c (Proc.devRef .tc main_v14) = Term.cell (m ((c : Thread nD τ).loc main_arg7)) :=
  (W2_of_ne m ρ c main_v14 (by decide)).trans (W1_v14 m ρ c)

theorem W2_arg4 (c : Dev nD) :
    W2 m ρ c (Proc.devRef .tc main_arg4) = m ((c : Thread nD τ).loc main_arg4) :=
  (W2_of_ne m ρ c main_arg4 (by decide)).trans (W1_arg4 m ρ c)

theorem W2_arg6 (c : Dev nD) :
    W2 m ρ c (Proc.devRef .tc main_arg6) = m ((c : Thread nD τ).loc main_arg6) :=
  (W2_of_ne m ρ c main_arg6 (by decide)).trans (W1_arg6 m ρ c)

/-- The first dense stage's table. -/
theorem W2_v15 (h0 : Final0) (c : Dev nD) :
    W2 m ρ c (Proc.devRef .tc main_v15)
      = Term.y0 (m ((c : Thread nD τ).loc main_arg0)) (m ((c : Thread nD τ).loc main_arg1))
          (m ((c : Thread nD τ).loc main_arg2)) := by
  refine (W2_arr m ρ c 3).trans ((h0 (V1 m ρ) c).trans ?_)
  unfold Term.y0
  exact congr (congr (congrArg Cert.Spec.lin0 (W1_arg0 m ρ c)) (W1_arg2 m ρ c)) (W1_v11 m ρ c)

/-! ## After the second stretch: the neighbour sum of the first table -/

theorem W3_v1 (c : Dev nD) :
    W3 m ρ c (Proc.devRef .tc main_v1) = Term.src (m ((c : Thread nD τ).loc main_arg1)) := by
  refine Eq.trans ?_ (W2_v1 m ρ c)
  show StableHlo.after hostOps1 (W2 m ρ c) (Proc.devRef .tc main_v1) = W2 m ρ c (Proc.devRef .tc main_v1)
  kept hostOps1

theorem W3_v3 (c : Dev nD) :
    W3 m ρ c (Proc.devRef .tc main_v3) = Term.dst (m ((c : Thread nD τ).loc main_arg1)) := by
  refine Eq.trans ?_ (W2_v3 m ρ c)
  show StableHlo.after hostOps1 (W2 m ρ c) (Proc.devRef .tc main_v3) = W2 m ρ c (Proc.devRef .tc main_v3)
  kept hostOps1

theorem W3_v11 (c : Dev nD) :
    W3 m ρ c (Proc.devRef .tc main_v11) = Term.isdCol (m ((c : Thread nD τ).loc main_arg1)) := by
  refine Eq.trans ?_ (W2_v11 m ρ c)
  show StableHlo.after hostOps1 (W2 m ρ c) (Proc.devRef .tc main_v11) = W2 m ρ c (Proc.devRef .tc main_v11)
  kept hostOps1

theorem W3_v12 (c : Dev nD) :
    W3 m ρ c (Proc.devRef .tc main_v12) = Term.row (m ((c : Thread nD τ).loc main_arg3)) := by
  refine Eq.trans ?_ (W2_v12 m ρ c)
  show StableHlo.after hostOps1 (W2 m ρ c) (Proc.devRef .tc main_v12) = W2 m ρ c (Proc.devRef .tc main_v12)
  kept hostOps1

theorem W3_v13 (c : Dev nD) :
    W3 m ρ c (Proc.devRef .tc main_v13) = Term.row (m ((c : Thread nD τ).loc main_arg5)) := by
  refine Eq.trans ?_ (W2_v13 m ρ c)
  show StableHlo.after hostOps1 (W2 m ρ c) (Proc.devRef .tc main_v13) = W2 m ρ c (Proc.devRef .tc main_v13)
  kept hostOps1

theorem W3_v14 (c : Dev nD) :
    W3 m ρ c (Proc.devRef .tc main_v14) = Term.cell (m ((c : Thread nD τ).loc main_arg7)) := by
  refine Eq.trans ?_ (W2_v14 m ρ c)
  show StableHlo.after hostOps1 (W2 m ρ c) (Proc.devRef .tc main_v14) = W2 m ρ c (Proc.devRef .tc main_v14)
  kept hostOps1

theorem W3_arg4 (c : Dev nD) :
    W3 m ρ c (Proc.devRef .tc main_arg4) = m ((c : Thread nD τ).loc main_arg4) := by
  refine Eq.trans ?_ (W2_arg4 m ρ c)
  show StableHlo.after hostOps1 (W2 m ρ c) (Proc.devRef .tc main_arg4) = W2 m ρ c (Proc.devRef .tc main_arg4)
  kept hostOps1

theorem W3_arg6 (c : Dev nD) :
    W3 m ρ c (Proc.devRef .tc main_arg6) = m ((c : Thread nD τ).loc main_arg6) := by
  refine Eq.trans ?_ (W2_arg6 m ρ c)
  show StableHlo.after hostOps1 (W2 m ρ c) (Proc.devRef .tc main_arg6) = W2 m ρ c (Proc.devRef .tc main_arg6)
  kept hostOps1

theorem W3_v15 (h0 : Final0) (c : Dev nD) :
    W3 m ρ c (Proc.devRef .tc main_v15)
      = Term.y0 (m ((c : Thread nD τ).loc main_arg0)) (m ((c : Thread nD τ).loc main_arg1))
          (m ((c : Thread nD τ).loc main_arg2)) := by
  refine Eq.trans ?_ (W2_v15 m ρ h0 c)
  show StableHlo.after hostOps1 (W2 m ρ c) (Proc.devRef .tc main_v15) = W2 m ρ c (Proc.devRef .tc main_v15)
  kept hostOps1

/-- The neighbour sum of the first table: the stretch's gather at the wrapped source index and scatter-add at the
    destination index, read at the table and the edge rows already named. -/
theorem W3_v25 (h0 : Final0) (c : Dev nD) :
    W3 m ρ c (Proc.devRef .tc main_v25)
      = Term.seg (Term.y0 (m ((c : Thread nD τ).loc main_arg0)) (m ((c : Thread nD τ).loc main_arg1))
          (m ((c : Thread nD τ).loc main_arg2))) (m ((c : Thread nD τ).loc main_arg1)) := by
  show StableHlo.after hostOps1 (W2 m ρ c) (Proc.devRef .tc main_v25) = _
  after_results
  rw [W2_v1 m ρ c, W2_v3 m ρ c, W2_v15 m ρ h0 c]
  rfl

end Cert.KernelIdeal.RunValue

end
-- ==== Proof.KernelFold.lean ====
/-
  The kernel program's buffer contents followed on from the second dense stage to the result: the second table, its
  neighbour sum, the third stage's column, and the result — that column as a vector — as one term of the eight
  argument arrays.
-/
import proofs.«149404_j2456721293532_2_alg».proof.Proof.KernelFold0

set_option maxRecDepth 16384

noncomputable section

namespace Cert.KernelIdeal.RunValue

open Cert.KernelIdeal Cert.KernelIdeal.Gen Cert.KernelIdeal.Facts₀
open Idealize.ShloMosaic Idealize.ShloMosaic.TcCoe Idealize.ShloMosaic.StableHlo

variable (m : (ℓ : Loc nD τ sig) → Buf (Elt Ideal) ℓ) (ρ : Dev nD → PrngReg)

/-- A buffer none of a stretch's operations writes holds after the stretch what it held before. -/
local macro "kept" ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

/-! ## Through the second dense stage -/

theorem W4_v1 (c : Dev nD) :
    W4 m ρ c (Proc.devRef .tc main_v1) = Term.src (m ((c : Thread nD τ).loc main_arg1)) :=
  (W4_of_ne m ρ c main_v1 (by decide)).trans (W3_v1 m ρ c)

theorem W4_v3 (c : Dev nD) :
    W4 m ρ c (Proc.devRef .tc main_v3) = Term.dst (m ((c : Thread nD τ).loc main_arg1)) :=
  (W4_of_ne m ρ c main_v3 (by decide)).trans (W3_v3 m ρ c)

theorem W4_v11 (c : Dev nD) :
    W4 m ρ c (Proc.devRef .tc main_v11) = Term.isdCol (m ((c : Thread nD τ).loc main_arg1)) :=
  ((W4_arr m ρ c 2).trans (((dat1 (V3 m ρ) c).arrAt_in 2 rfl _).trans (A_eq1 (V3 m ρ) c 2))).trans (W3_v11 m ρ c)

theorem W4_v13 (c : Dev nD) :
    W4 m ρ c (Proc.devRef .tc main_v13) = Term.row (m ((c : Thread nD τ).loc main_arg5)) :=
  (W4_of_ne m ρ c main_v13 (by decide)).trans (W3_v13 m ρ c)

theorem W4_v14 (c : Dev nD) :
    W4 m ρ c (Proc.devRef .tc main_v14) = Term.cell (m ((c : Thread nD τ).loc main_arg7)) :=
  (W4_of_ne m ρ c main_v14 (by decide)).trans (W3_v14 m ρ c)

theorem W4_arg6 (c : Dev nD) :
    W4 m ρ c (Proc.devRef .tc main_arg6) = m ((c : Thread nD τ).loc main_arg6) :=
  (W4_of_ne m ρ c main_arg6 (by decide)).trans (W3_arg6 m ρ c)

/-- The second dense stage's table. -/
theorem W4_v26 (h0 : Final0) (h1 : Final1) (c : Dev nD) :
    W4 m ρ c (Proc.devRef .tc main_v26)
      = Term.y1 (m ((c : Thread nD τ).loc main_arg0)) (m ((c : Thread nD τ).loc main_arg1))
          (m ((c : Thread nD τ).loc main_arg2)) (m ((c : Thread nD τ).loc main_arg3))
          (m ((c : Thread nD τ).loc main_arg4)) := by
  refine (W4_arr m ρ c 5).trans ((h1 (V3 m ρ) c).trans ?_)
  unfold Term.y1
  exact congr (congr (congr (congr (congrArg Cert.Spec.lin1 (W3_v15 m ρ h0 c)) (W3_v25 m ρ h0 c)) (W3_v11 m ρ c))
    (W3_v12 m ρ c)) (W3_arg4 m ρ c)

/-! ## After the third stretch: the neighbour sum of the second table -/

theorem W5_v11 (c : Dev nD) :
    W5 m ρ c (Proc.devRef .tc main_v11) = Term.isdCol (m ((c : Thread nD τ).loc main_arg1)) := by
  refine Eq.trans ?_ (W4_v11 m ρ c)
  show StableHlo.after hostOps2 (W4 m ρ c) (Proc.devRef .tc main_v11) = W4 m ρ c (Proc.devRef .tc main_v11)
  kept hostOps2

theorem W5_v13 (c : Dev nD) :
    W5 m ρ c (Proc.devRef .tc main_v13) = Term.row (m ((c : Thread nD τ).loc main_arg5)) := by
  refine Eq.trans ?_ (W4_v13 m ρ c)
  show StableHlo.after hostOps2 (W4 m ρ c) (Proc.devRef .tc main_v13) = W4 m ρ c (Proc.devRef .tc main_v13)
  kept hostOps2

theorem W5_v14 (c : Dev nD) :
    W5 m ρ c (Proc.devRef .tc main_v14) = Term.cell (m ((c : Thread nD τ).loc main_arg7)) := by
  refine Eq.trans ?_ (W4_v14 m ρ c)
  show StableHlo.after hostOps2 (W4 m ρ c) (Proc.devRef .tc main_v14) = W4 m ρ c (Proc.devRef .tc main_v14)
  kept hostOps2

theorem W5_arg6 (c : Dev nD) :
    W5 m ρ c (Proc.devRef .tc main_arg6) = m ((c : Thread nD τ).loc main_arg6) := by
  refine Eq.trans ?_ (W4_arg6 m ρ c)
  show StableHlo.after hostOps2 (W4 m ρ c) (Proc.devRef .tc main_arg6) = W4 m ρ c (Proc.devRef .tc main_arg6)
  kept hostOps2

theorem W5_v26 (h0 : Final0) (h1 : Final1) (c : Dev nD) :
    W5 m ρ c (Proc.devRef .tc main_v26)
      = Term.y1 (m ((c : Thread nD τ).loc main_arg0)) (m ((c : Thread nD τ).loc main_arg1))
          (m ((c : Thread nD τ).loc main_arg2)) (m ((c : Thread nD τ).loc main_arg3))
          (m ((c : Thread nD τ).loc main_arg4)) := by
  refine Eq.trans ?_ (W4_v26 m ρ h0 h1 c)
  show StableHlo.after hostOps2 (W4 m ρ c) (Proc.devRef .tc main_v26) = W4 m ρ c (Proc.devRef .tc main_v26)
  kept hostOps2

/-- The neighbour sum of the second table. -/
theorem W5_v36 (h0 : Final0) (h1 : Final1) (c : Dev nD) :
    W5 m ρ c (Proc.devRef .tc main_v36)
      = Term.seg (Term.y1 (m ((c : Thread nD τ).loc main_arg0)) (m ((c : Thread nD τ).loc main_arg1))
          (m ((c : Thread nD τ).loc main_arg2)) (m ((c : Thread nD τ).loc main_arg3))
          (m ((c : Thread nD τ).loc main_arg4))) (m ((c : Thread nD τ).loc main_arg1)) := by
  show StableHlo.after hostOps2 (W4 m ρ c) (Proc.devRef .tc main_v36) = _
  after_results
  rw [W4_v1 m ρ c, W4_v3 m ρ c, W4_v26 m ρ h0 h1 c]
  rfl

/-! ## Through the third dense stage, and the result -/

/-- The third dense stage's column. -/
theorem W6_v37 (h0 : Final0) (h1 : Final1) (h2 : Final2) (c : Dev nD) :
    W6 m ρ c (Proc.devRef .tc main_v37)
      = Term.y2 (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (m ((c : Thread nD τ).loc main_arg7)) := by
  refine (W6_arr m ρ c 6).trans ((h2 (V5 m ρ) c).trans ?_)
  unfold Term.y2
  exact congr (congr (congr (congr (congr (congrArg Cert.Spec.lin2 (W5_v26 m ρ h0 h1 c)) (W5_v36 m ρ h0 h1 c))
    (W5_v11 m ρ c)) (W5_v13 m ρ c)) (W5_arg6 m ρ c)) (W5_v14 m ρ c)

/-- The result buffer at the end of the program: the third stage's column as a vector. -/
theorem W7_v38 (h0 : Final0) (h1 : Final1) (h2 : Final2) (c : Dev nD) :
    W7 m ρ c (Proc.devRef .tc main_v38)
      = Term.out (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (m ((c : Thread nD τ).loc main_arg7)) := by
  show StableHlo.after hostOps3 (W6 m ρ c) (Proc.devRef .tc main_v38) = _
  after_results
  rw [W6_v37 m ρ h0 h1 h2 c]
  rfl

/-- The program's result buffer holds the result term of the eight argument arrays as launched. -/
theorem value (h0 : Final0) (h1 : Final1) (h2 : Final2) (c : Dev nD) :
    W7 m ρ c (Proc.devRef .tc main_v38)
      = Term.out (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) :=
  W7_v38 m ρ h0 h1 h2 c

end Cert.KernelIdeal.RunValue

end
-- ==== Proof.KernelRun.lean ====
/-
  The kernel program's run with its result named: from any launch memory with zero counters, every weakly fair
  execution on the TensorCores terminates, nothing faulting, with the result buffer at the result term of the eight
  argument arrays and the argument arrays as launched. The run is the launch over the program's seven segments — four
  stretches of host operations and the three dense stages between them — from the thread state "every unscoped buffer
  at the boundary's contents"; the last thread state is read against the final memory, the result buffer through the
  fold of the boundary contents back to the launch memory.
-/
import proofs.«149404_j2456721293532_2_alg».proof.Proof.KernelFold

set_option maxRecDepth 16384

noncomputable section

namespace Cert.KernelIdeal.RunValue

open Cert.KernelIdeal Cert.KernelIdeal.Gen Cert.KernelIdeal.Facts₀
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every weakly fair execution of the program terminates with the result buffer at `Term.out` of the launch
    contents of the eight argument arrays, and those arrays unchanged. -/
theorem run (h0 : Final0) (h1 : Final1) (h2 : Final2) :
    θ_run defs (onTc (τ := τ) (main (F := Ideal))) ⟨m, fun _ => 0, ρ⟩ (fun r => ∀ c : Dev nD,
      r.2.mem ((c.tc : Thread nD τ).loc main_v38)
        = Term.out (m ((c.tc : Thread nD τ).loc main_arg0)) (m ((c.tc : Thread nD τ).loc main_arg1)) (m ((c.tc : Thread nD τ).loc main_arg2)) (m ((c.tc : Thread nD τ).loc main_arg3))
            (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨(h c _ (mem_uc main_v38 (by decide))).trans (value m ρ h0 h1 h2 c),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c)⟩)

end Cert.KernelIdeal.RunValue

end
-- ==== Proof.Claims.lean ====
/-
  The certificate's claims, assembled. The three frame claims are the programs' runs with the argument arrays
  unchanged. The algebraic claim sets the kernel program's run, whose result is the result term of the eight argument
  arrays (the three dense stages as whole-array functions between the host operations), beside the reference program's
  run, whose result is its own composed term of its arguments; from memories that agree on the arguments the two
  results are equal once the two terms are one function of the arguments, which is taken here as a hypothesis.
-/
import proofs.«149404_j2456721293532_2_alg».proof.Defs
import proofs.«149404_j2456721293532_2_alg».proof.Proof.Gen.Kernel.Frame
import proofs.«149404_j2456721293532_2_alg».proof.Proof.Gen.KernelIdeal.Frame
import proofs.«149404_j2456721293532_2_alg».proof.Proof.Region0
import proofs.«149404_j2456721293532_2_alg».proof.Proof.Region1
import proofs.«149404_j2456721293532_2_alg».proof.Proof.Region2
import proofs.«149404_j2456721293532_2_alg».proof.Proof.KernelRun
import proofs.«149404_j2456721293532_2_alg».proof.Proof.Gen.ReferenceIdeal.Run
import proofs.«149404_j2456721293532_2_alg».proof.Proof.Gen.ReferenceIdeal.Read
import proofs.«149404_j2456721293532_2_alg».proof.Proof.Gen.Pre_finite_inputs

noncomputable section

open Idealize.ShloMosaic Idealize.ShloMosaic.TcCoe Idealize.SL.Sem

namespace Cert.Proof.Claims

/-- The kernel program as printed runs and leaves its arguments unchanged. -/
theorem frame_k : Cert.frame_Kernel := fun m ρ _ => Cert.Kernel.Gen.frame m ρ

/-- The kernel program on the extended reals runs and leaves its arguments unchanged. -/
theorem frame_ki : Cert.frame_KernelIdeal := fun m ρ _ => Cert.KernelIdeal.Gen.frame m ρ

/-- The reference program on the extended reals runs and leaves its arguments unchanged. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten between the two readings of the kernel program: nothing to state. -/
theorem preserves : Cert.preserves_Kernel_KernelIdeal := trivial

/-- From memories agreeing on the eight arguments both programs run, leave their arguments unchanged, and end with
    equal results: the kernel's result buffer holds the result term of its arguments (the run, with each dense stage's
    output array a whole-array function of its inputs), the reference's holds its composed term of its arguments, and
    the two terms are one function of the arguments (`hres`). -/
theorem algebraic
    (hres : ∀ (x : FVec Ideal Cert.KernelIdeal.S100000x128 .f32) (e : IVec Cert.KernelIdeal.S2x1600000 32)
      (W1 : FVec Ideal Cert.KernelIdeal.S128x128 .f32) (b1 : FVec Ideal Cert.KernelIdeal.S128 .f32)
      (W2 : FVec Ideal Cert.KernelIdeal.S128x128 .f32) (b2 : FVec Ideal Cert.KernelIdeal.S128 .f32)
      (Wo : FVec Ideal Cert.KernelIdeal.S128x1 .f32) (bo : FVec Ideal Cert.KernelIdeal.S1 .f32),
      Cert.ReferenceIdeal.Read.val_main_v97 (F := Ideal) x e W1 b1 W2 b2 Wo bo
        = Cert.KernelIdeal.Term.out x e W1 b1 W2 b2 Wo bo) :
    Cert.algebraic_KernelIdeal_ReferenceIdeal := by
  intro m ρ m' ρ' _ hagree
  refine ⟨_, Cert.KernelIdeal.RunValue.run m ρ
    (fun V c => Cert.KernelIdeal.RegionValue.final0 V c)
    (fun V c => Cert.KernelIdeal.RegionValue.final1 V c)
    (fun V c => Cert.KernelIdeal.RegionValue.final2 V c), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v97_eq, hres, (hagree c).1, (hagree c).2.1, (hagree c).2.2.1, (hagree c).2.2.2.1, (hagree c).2.2.2.2.1, (hagree c).2.2.2.2.2.1, (hagree c).2.2.2.2.2.2.1, (hagree c).2.2.2.2.2.2.2]

end Cert.Proof.Claims

end
-- ==== Proof.LibGatherScatterIdx.lean ====
/-
  Row gathers and row scatters read at an index.

  `x[idx]` of a table `x : [N, D]` (or of a vector `x : [N]`) at a column of start indices `idx : [E, 1]` lowers to a
  gather whose result row `e` is the operand's row at the start index `idx[e, 0]`, read as a signed integer and clamped
  into `[0, N − 1]`; `x.at[idx].add(u)` lowers to a scatter in which update row `e` lands on the operand's row
  `idx[e, 0]`, read signed and NOT clamped, and is dropped when that is no row. The lemmas below read the two
  operations' index maps at coordinates: the gather's operand index (`rowGather_operandIdx`, `vecGather_operandIdx`),
  and what it means for update `(e, d)` to land on element `i` (`rowScatter_lands`).
-/
import Idealize.ShloMosaic.PureOps.Ideal
import Idealize.ShloMosaic.Lib.ValueIdx

noncomputable section

namespace Cert.LibIdx

open Idealize.ShloMosaic Idealize.ShloMosaic.ValueIdx

/-- The dimension numbers of `x[idx]` for a table `[N, D]` and start indices `[E, 1]`: whole rows are taken. -/
abbrev rowGather (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The dimension numbers of `x[idx]` for a vector `[N]` and start indices `[E, 1]`. -/
abbrev vecGather (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The dimension numbers of `x.at[idx].add(u)` for a table `[N, D]`, scatter indices `[E, 1]`, updates `[E, D]`. -/
abbrev rowScatter (N D E : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- THE ROW GATHER'S OPERAND INDEX at `(e, d)`: row `idx[e, 0]` read signed and clamped into `[0, N − 1]`, column `d`. -/
theorem rowGather_operandIdx {N D E w : Nat} (hN : 0 < N)
    (wf : GatherDims.WF ⟨2, ![N, D]⟩ ⟨2, ![E, 1]⟩ ⟨2, ![E, D]⟩ [1] [0] [] [0] [] 1 ![1, D])
    (idx : IVec ⟨2, ![E, 1]⟩ w) (e : Fin E) (d : Fin D) :
    (rowGather N D E wf).operandIdx (ix2 e d) idx
      = ix2 ⟨min (idx (ix2 e (0 : Fin 1))).toInt.toNat (N - 1), by omega⟩ d := by
  have h0 : ((rowGather N D E wf).operandIdx (ix2 e d) idx (0 : Fin 2)).val = min (idx (ix2 e (0 : Fin 1))).toInt.toNat (N - 1) := by
    show (rowGather N D E wf).start (ix2 e d) idx 0 + (rowGather N D E wf).batchCoord (ix2 e d) 0
      + (rowGather N D E wf).offCoord (ix2 e d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N D E wf).startIndexMap from List.mem_singleton.mpr rfl)]
    have hsi : (rowGather N D E wf).siIdx (ix2 e d) ⟨List.idxOf (0 : Fin 2) (rowGather N D E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  have h1 : ((rowGather N D E wf).operandIdx (ix2 e d) idx (1 : Fin 2)).val = d.val := by
    show (rowGather N D E wf).start (ix2 e d) idx 1 + (rowGather N D E wf).batchCoord (ix2 e d) 1
      + (rowGather N D E wf).offCoord (ix2 e d) 1 = _
    rw [GatherDims.batchCoord_eq_zero _ _ _ List.not_mem_nil]
    unfold GatherDims.start
    rw [dif_neg (by decide : (1 : Fin 2) ∉ ([0] : List (Fin 2)))]
    unfold GatherDims.offCoord
    rw [dif_pos ((GatherDims.mem_sKept _ _).mpr ⟨(by decide : (1 : Fin 2) ∉ ([0] : List (Fin 2))), List.not_mem_nil⟩)]
    have hone : ∀ (k : Nat) (h : k < ([1] : List (Fin 2)).length), ([1] : List (Fin 2))[k] = 1 := by
      intro k h
      have hk : k = 0 := by simpa using h
      subst hk; rfl
    dsimp only
    rw [hone]
    simp
  funext a
  refine Fin.ext ?_
  match a with
  | ⟨0, _⟩ => exact h0
  | ⟨1, _⟩ => exact h1

/-- THE VECTOR GATHER'S OPERAND INDEX at `e`: element `idx[e, 0]` read signed and clamped into `[0, N − 1]`. -/
theorem vecGather_operandIdx {N E w : Nat} (hN : 0 < N)
    (wf : GatherDims.WF ⟨1, ![N]⟩ ⟨2, ![E, 1]⟩ ⟨1, ![E]⟩ [] [0] [] [0] [] 1 ![1])
    (idx : IVec ⟨2, ![E, 1]⟩ w) (e : Fin E) :
    (vecGather N E wf).operandIdx (ix1 e) idx
      = ix1 ⟨min (idx (ix2 e (0 : Fin 1))).toInt.toNat (N - 1), by omega⟩ := by
  funext a
  obtain rfl : a = 0 := Subsingleton.elim _ _
  refine Fin.ext ?_
  show (vecGather N E wf).start (ix1 e) idx 0 + (vecGather N E wf).batchCoord (ix1 e) 0
    + (vecGather N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGather N E wf).startIndexMap from List.mem_singleton.mpr rfl)]
  have hsi : (vecGather N E wf).siIdx (ix1 e) ⟨List.idxOf (0 : Fin 1) (vecGather N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- WHERE A ROW SCATTER'S UPDATE LANDS: if update `(e, d)` lands on element `i`, then the scatter index `idx[e, 0]`,
    read signed, is `i`'s row. -/
theorem rowScatter_lands {N D E w : Nat}
    (wf : ScatterDims.WF ⟨2, ![N, D]⟩ ⟨2, ![E, 1]⟩ ⟨2, ![E, D]⟩ [1] [0] [0] 1)
    (idx : IVec ⟨2, ![E, 1]⟩ w) (e : Fin E) (d : Fin D) (i : (⟨2, ![N, D]⟩ : Shape).Idx)
    (h : (rowScatter N D E wf).resultIdx? (ix2 e d) idx = some i) :
    (idx (ix2 e (0 : Fin 1))).toInt = ((i 0).val : Int) := by
  unfold ScatterDims.resultIdx? at h
  split at h
  · rename_i hb
    have hi := congrFun (Option.some.inj h) 0
    have h0 := (hb 0).1
    have hw : (rowScatter N D E wf).window (ix2 e d) 0 = 0 := by
      unfold ScatterDims.window
      rw [dif_neg (by simp [ScatterDims.sKept, Shape.kept, List.mem_filter])]
    have hs : (rowScatter N D E wf).start (ix2 e d) idx 0 = (idx (ix2 e (0 : Fin 1))).toInt := by
      unfold ScatterDims.start
      rw [dif_pos (show (0 : Fin 2) ∈ (rowScatter N D E wf).scatterDimsToOperandDims from List.mem_singleton.mpr rfl)]
      have hsi : (rowScatter N D E wf).siIdx (ix2 e d) ⟨List.idxOf (0 : Fin 2) (rowScatter N D E wf).scatterDimsToOperandDims,
          List.idxOf_lt_length_iff.2 (List.mem_singleton.mpr rfl)⟩ = ix2 e (0 : Fin 1) := by
        funext b; refine Fin.ext ?_
        match b with
        | ⟨0, _⟩ => rfl
        | ⟨1, _⟩ => rfl
      rw [hsi]
    rw [hw, hs] at h0
    have hv : ((rowScatter N D E wf).start (ix2 e d) idx 0 + ((rowScatter N D E wf).window (ix2 e d) 0 : Int)).toNat = (i 0).val :=
      congrArg Fin.val hi
    rw [hw, hs] at hv
    simp only [Nat.cast_zero, Int.add_zero] at hv h0
    omega
  · exact absurd h (by simp)

end Cert.LibIdx

end
-- ==== Proof.Aggregate.lean ====
/-
  The aggregation law of a symmetrically normalised graph convolution, on the extended reals.

  Let `s i` be a finite non-negative factor per node (the inverse square root of the degree), `h` a feature table,
  `src e` / `dst e` the (clamped) source row and the destination row of edge `e`. Scaling every row of `h` by its own
  node's factor BEFORE the rows are gathered and summed at their destinations, and scaling the sum by the
  destination's factor AFTERWARDS, gives what summing the gathered rows each scaled by the edge's weight
  `s (src e) · s (dst e)` gives:

    s i · (∑_{e → i} h (src e) · s (src e)  +  h i · s i)  =  ∑_{e → i} h (src e) · (s (src e) · s (dst e))  +  h i · (s i · s i)

  — an edge's update lands on row `i` exactly when `dst e = i`, so inside the sum the weight's second factor is `s i`,
  a finite non-negative number, which multiplication distributes over sums of extended reals.
-/
import Idealize.ShloMosaic.PureOps.Ideal
import Idealize.ShloMosaic.Lib.ValueIdx
import proofs.«149404_j2456721293532_2_alg».proof.Proof.LibGatherScatterIdx

noncomputable section

open scoped BigOperators

namespace Cert.Aggregate

open Idealize.ShloMosaic Idealize.ShloMosaic.ValueIdx Cert.LibIdx

/-- A finite non-negative factor comes out of a finite sum of extended reals. -/
theorem sum_mul_of_nonneg_of_ne_top {ι : Type} (F : Finset ι) (g : ι → EReal) {c : EReal} (h0 : 0 ≤ c) (ht : c ≠ ⊤) :
    ∑ j ∈ F, g j * c = (∑ j ∈ F, g j) * c := by
  classical
  induction F using Finset.induction_on with
  | empty => simp
  | insert a s ha ih =>
    rw [Finset.sum_insert ha, Finset.sum_insert ha, ih, EReal.right_distrib_of_nonneg_of_ne_top h0 ht]

/-- THE AGGREGATION LAW (see the header). `dIdx` is the raw destination column the scatter reads, `dIdxN` the
    normalised one the weight's gather reads: they name the same row whenever the raw one names a row at all. -/
theorem agg {N D E w : Nat} (hN : 0 < N)
    (wfR : GatherDims.WF ⟨2, ![N, D]⟩ ⟨2, ![E, 1]⟩ ⟨2, ![E, D]⟩ [1] [0] [] [0] [] 1 ![1, D])
    (wfV : GatherDims.WF ⟨1, ![N]⟩ ⟨2, ![E, 1]⟩ ⟨1, ![E]⟩ [] [0] [] [0] [] 1 ![1])
    (wfS : ScatterDims.WF ⟨2, ![N, D]⟩ ⟨2, ![E, 1]⟩ ⟨2, ![E, D]⟩ [1] [0] [0] 1)
    (h : (⟨2, ![N, D]⟩ : Shape).Idx → EReal) (s inv : (⟨1, ![N]⟩ : Shape).Idx → EReal)
    (z : (⟨2, ![N, D]⟩ : Shape).Idx → EReal) (hz : ∀ j, z j = 0)
    (sIdx dIdx dIdxN : IVec ⟨2, ![E, 1]⟩ w)
    (hs0 : ∀ i, 0 ≤ s i) (hst : ∀ i, s i ≠ ⊤) (hinv : ∀ i, s i * s i = inv i)
    (hdn : ∀ (e : Fin E) (i : Fin N), (dIdx (ix2 e (0 : Fin 1))).toInt = (i.val : Int) →
        min (dIdxN (ix2 e (0 : Fin 1))).toInt.toNat (N - 1) = i.val)
    (i : Fin N) (d : Fin D) :
    s (ix1 i) * (Ideal.hostScatterAdd (rowScatter N D E wfS) z dIdx
          (Host.gather (rowGather N D E wfR) (fun q => h q * s (ix1 (q 0))) sIdx) (ix2 i d) + h (ix2 i d) * s (ix1 i))
      = Ideal.hostScatterAdd (rowScatter N D E wfS) z dIdx
          (fun j => Host.gather (rowGather N D E wfR) h sIdx j
            * (Host.gather (vecGather N E wfV) s sIdx (ix1 (j 0)) * Host.gather (vecGather N E wfV) s dIdxN (ix1 (j 0))))
          (ix2 i d)
        + h (ix2 i d) * inv (ix1 i) := by
  unfold Ideal.hostScatterAdd
  rw [hz, zero_add, zero_add]
  have key : ∀ j ∈ Finset.univ.filter (fun j => (rowScatter N D E wfS).resultIdx? j dIdx = some (ix2 i d)),
      Host.gather (rowGather N D E wfR) h sIdx j
        * (Host.gather (vecGather N E wfV) s sIdx (ix1 (j 0)) * Host.gather (vecGather N E wfV) s dIdxN (ix1 (j 0)))
      = Host.gather (rowGather N D E wfR) (fun q => h q * s (ix1 (q 0))) sIdx j * s (ix1 i) := by
    intro j hj
    obtain ⟨e, d', rfl⟩ : ∃ (e : Fin E) (d' : Fin D), j = ix2 e d' := ⟨j 0, j 1, eq_ix2 j⟩
    have hl := rowScatter_lands wfS dIdx e d' (ix2 i d) (Finset.mem_filter.mp hj).2
    have hc := hdn e i hl
    have hi : (ix1 ⟨min (dIdxN (ix2 e (0 : Fin 1))).toInt.toNat (N - 1), by omega⟩ : (⟨1, ![N]⟩ : Shape).Idx) = ix1 i := by
      congr 1; exact Fin.ext hc
    show (h ((rowGather N D E wfR).operandIdx (ix2 e d') sIdx))
        * (s ((vecGather N E wfV).operandIdx (ix1 e) sIdx) * s ((vecGather N E wfV).operandIdx (ix1 e) dIdxN))
      = (h ((rowGather N D E wfR).operandIdx (ix2 e d') sIdx)
          * s (ix1 (((rowGather N D E wfR).operandIdx (ix2 e d') sIdx) 0))) * s (ix1 i)
    rw [rowGather_operandIdx hN wfR sIdx e d', vecGather_operandIdx hN wfV sIdx e, vecGather_operandIdx hN wfV dIdxN e, hi,
      mul_assoc]
    rfl
  rw [Finset.sum_congr rfl key, sum_mul_of_nonneg_of_ne_top _ _ (hs0 _) (hst _),
    EReal.left_distrib_of_nonneg_of_ne_top (hs0 _) (hst _), ← hinv (ix1 i)]
  rw [mul_comm (s (ix1 i)) (∑ j ∈ _, _), ← mul_assoc (s (ix1 i)), mul_comm (s (ix1 i)) (h (ix2 i d)), mul_assoc]

end Cert.Aggregate

end
-- ==== Proof.Degree.lean ====
/-
  The degree and its inverse square root are honest numbers.

  The degree of node `i` is `1 + (0 + ∑ 1)` over the edges arriving at `i`: one plus a natural number, whatever the
  edge list holds. So its inverse square root `s i` is a positive real — in particular non-negative and finite, which
  is what lets it be moved across sums of extended reals — and `s i · s i` is the reciprocal of the degree, the
  self-loop weight the reference computes as `1 / deg i`.
-/
import proofs.«149404_j2456721293532_2_alg».proof.Proof.KTerm
import proofs.«149404_j2456721293532_2_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

open scoped BigOperators

namespace Cert.Degree

open Idealize.ShloMosaic Idealize.ShloMosaic.ValueIdx
open Cert.KernelIdeal.Term

/-- The word `0x3F800000` is the number one. -/
theorem ofBits_one : Ideal.ofBits .f32 0x3F800000#32 = 1 := by
  simp [Ideal.ofBits, Ideal.ieee, -EReal.coe_mul]; norm_num

/-- A scalar constant broadcast to any shape reads as its value everywhere. -/
theorem bcast_const_apply {s : Shape} (h : Cert.KernelIdeal.S_.BroadcastsInDim s (![] : Fin 0 → Fin s.rank)) (b : BitVec 32)
    (i : s.Idx) :
    broadcastInDim s ![] h (constant (F := Ideal) Cert.KernelIdeal.S_ .f32 b) i = Ideal.ofBits .f32 b := by
  rw [broadcastInDim_apply _ h _ i (fun a => a.elim0) (fun a => a.elim0)]
  rfl

/-- A finite sum of ones is the number of its terms. -/
theorem sum_ones {ι : Type} (F : Finset ι) : ∑ _j ∈ F, (1 : EReal) = ((F.card : ℝ) : EReal) := by
  classical
  induction F using Finset.induction_on with
  | empty => simp
  | insert a s ha ih =>
    rw [Finset.sum_insert ha, ih, Finset.card_insert_of_notMem ha, Nat.cast_add, Nat.cast_one, EReal.coe_add, EReal.coe_one,
      add_comm]

/-- A scatter-add of ones into zeros counts: every element is a natural number. -/
theorem scatterAdd_ones {s si su : Shape} {w : Nat} (d : ScatterDims s si su) (z : s.Idx → EReal) (idx : IVec si w)
    (u : su.Idx → EReal) (hz : ∀ i, z i = 0) (hu : ∀ j, u j = 1) (i : s.Idx) :
    ∃ n : ℕ, Ideal.hostScatterAdd d z idx u i = ((n : ℝ) : EReal) := by
  unfold Ideal.hostScatterAdd
  rw [hz, zero_add, Finset.sum_congr rfl (fun j _ => hu j), sum_ones]
  exact ⟨_, rfl⟩

/-- The host's accumulating scatter on the extended reals is the exact sum. -/
theorem scatterAdd_eq {s si su : Shape} {w : Nat} (d : ScatterDims s si su) (z : FVec Ideal s .f32) (idx : IVec si w)
    (u : FVec Ideal su .f32) : Host.scatterAdd d z idx u = Ideal.hostScatterAdd d z idx u := rfl

/-- The host's inverse square root at an index. -/
theorem rsqrt_apply {s : Shape} (a : FVec Ideal s .f32) (i : s.Idx) : Host.rsqrt a i = Ideal.rsqrt (a i) := rfl

variable (e : IVec Cert.KernelIdeal.S2x1600000 32)

/-- The degree is one plus a natural number. -/
theorem deg_apply (i : Cert.KernelIdeal.S100000.Idx) : ∃ n : ℕ, deg e i = (((1 : ℝ) + (n : ℝ) : ℝ) : EReal) := by
  obtain ⟨n, hn⟩ := scatterAdd_ones Cert.KernelIdeal.scatter_S100000_S1600000x1_S1600000_n_0_0_1
    (broadcastInDim Cert.KernelIdeal.S100000 ![] Cert.KernelIdeal.Facts₀.bcast_S_S100000 (constant (F := Ideal) Cert.KernelIdeal.S_ .f32 0x00000000#32))
    (didx e)
    (broadcastInDim Cert.KernelIdeal.S1600000 ![] Cert.KernelIdeal.Facts₀.bcast_S_S1600000 (constant (F := Ideal) Cert.KernelIdeal.S_ .f32 0x3F800000#32))
    (fun j => by rw [bcast_const_apply, Ideal.ofBits_zero_f32]) (fun j => by rw [bcast_const_apply, ofBits_one]) i
  refine ⟨n, ?_⟩
  unfold deg
  rw [addf_apply]
  rw [scatterAdd_eq, hn, bcast_const_apply, ofBits_one, EReal.coe_add, EReal.coe_one]

/-- The inverse square root of the degree is a positive real. -/
theorem isd_apply (i : Cert.KernelIdeal.S100000.Idx) : ∃ r : ℝ, 0 < r ∧ isd e i = (r : EReal) ∧ deg e i = ((r * r)⁻¹ : ℝ) := by
  obtain ⟨n, hn⟩ := deg_apply e i
  have hpos : (0 : ℝ) < 1 + n := by positivity
  refine ⟨(Real.sqrt (1 + n))⁻¹, inv_pos.mpr (Real.sqrt_pos.mpr hpos), ?_, ?_⟩
  · unfold isd
    rw [rsqrt_apply, hn]
    show (if (1 + (n : ℝ)) < 0 then (⊥ : EReal) else if (1 + (n : ℝ)) = 0 then ⊤ else ((Real.sqrt (1 + n))⁻¹ : ℝ)) = _
    rw [if_neg (not_lt.mpr hpos.le), if_neg hpos.ne']
  · rw [hn, ← mul_inv, Real.mul_self_sqrt hpos.le, inv_inv]

theorem isd_nonneg (i : Cert.KernelIdeal.S100000.Idx) : 0 ≤ isd e i := by
  obtain ⟨r, hr, h, -⟩ := isd_apply e i
  rw [h]; exact_mod_cast hr.le

theorem isd_ne_top (i : Cert.KernelIdeal.S100000.Idx) : isd e i ≠ ⊤ := by
  obtain ⟨r, -, h, -⟩ := isd_apply e i
  rw [h]; exact EReal.coe_ne_top r

/-- `s i · s i = 1 / deg i`, the reference's self-loop weight. -/
theorem isd_sq (i : Cert.KernelIdeal.S100000.Idx) :
    isd e i * isd e i = Cert.ReferenceIdeal.Read.val_main_v12 (F := Ideal) e i := by
  obtain ⟨r, hr, h, hd⟩ := isd_apply e i
  have hne : ((r * r)⁻¹ : ℝ) ≠ 0 := inv_ne_zero (mul_pos hr hr).ne'
  have hdeg : Cert.ReferenceIdeal.Read.val_main_v9 (F := Ideal) e = deg e := rfl
  rw [Cert.ReferenceIdeal.Read.val_main_v12_apply, hdeg, Ideal.hostDivf_def, Cert.ReferenceIdeal.Read.val_main_v11_apply,
    Cert.ReferenceIdeal.Read.val_main_cst_2_apply, Ideal.ofBits_def, ofBits_one, hd, Ideal.div_coe hne, h, one_mul, ← EReal.coe_mul, one_div, inv_inv]

end Cert.Degree

end
-- ==== Proof.NormDst.lean ====
/-
  A destination index that names a row is not moved by the wrap of negative indices.

  The reference gathers the destination's factor at the destination index after wrapping negative values once
  (`j < 0 ? j + 100000 : j`) and clamping into `[0, 99999]`, while the scatter-add reads the raw index and drops an
  update whose index names no row. When the raw index of edge `g` is a row `i`, it is non-negative, so the wrap
  leaves it alone and the clamp does too: both name row `i`.
-/
import proofs.«149404_j2456721293532_2_alg».proof.Proof.KTerm
import proofs.«149404_j2456721293532_2_alg».proof.Proof.Gen.ReferenceIdeal.Read
import Idealize.ShloMosaic.Lib.Pipeline.Value
import Idealize.ShloMosaic.Lib.ValueIdx

set_option maxRecDepth 16384

noncomputable section

namespace Cert.NormDst

open Idealize.ShloMosaic Idealize.ShloMosaic.ValueIdx
open Cert.KernelIdeal.Term Cert.ReferenceIdeal.Read

variable (e : IVec Cert.KernelIdeal.S2x1600000 32)

/-- The destination column at `(g, 0)` is the destination of edge `g`. -/
theorem didx_apply (g : Fin 1600000) : didx e (ix2 g (0 : Fin 1)) = dst e (ix1 g) := by
  unfold didx
  exact broadcastInDim_apply _ _ _ _ (ix1 g) (fun a => match a with
    | ⟨0, _⟩ => by show g.val = if (1600000 : Nat) = 1 then 0 else g.val; rw [if_neg (by decide)])

/-- The wrapped destination column at `(g, 0)`, when the raw destination is not negative. -/
theorem wrapped_apply (g : Fin 1600000) (h : 0 ≤ (dst e (ix1 g)).toInt) :
    val_main_v26 (F := Ideal) e (ix2 g (0 : Fin 1)) = dst e (ix1 g) := by
  have hi : idx_main_v26 (ix2 g (0 : Fin 1)) = ix1 g := funext fun a => match a with | ⟨0, _⟩ => rfl
  have hv3 : val_main_v3 (F := Ideal) e = dst e := rfl
  rw [val_main_v26_apply, val_main_v25_apply, val_main_v22_apply, val_main_v21_apply, val_main_c_4_apply, hi, hv3]
  have hc : IntOp.cmpi .slt (dst e (ix1 g)) 0#32 = 0#1 := by
    have hs : (dst e (ix1 g)).slt 0#32 = false := by
      rw [BitVec.slt]; simp only [BitVec.toInt_zero, decide_eq_false_iff_not, not_lt]; exact h
    show BitVec.ofBool ((dst e (ix1 g)).slt 0#32) = 0#1
    rw [hs]; rfl
  rw [hc]; exact if_neg (by decide)

/-- The raw and the wrapped-and-clamped destination name the same row whenever the raw one names a row. -/
theorem dst_norm (g : Fin 1600000) (i : Fin 100000) (h : (didx e (ix2 g (0 : Fin 1))).toInt = (i.val : Int)) :
    min (val_main_v26 (F := Ideal) e (ix2 g (0 : Fin 1))).toInt.toNat (100000 - 1) = i.val := by
  rw [didx_apply] at h
  rw [wrapped_apply e g (by rw [h]; exact Int.natCast_nonneg _), h]
  have := i.isLt
  simp only [Int.toNat_natCast]
  omega

end Cert.NormDst

end
-- ==== Proof.RefRead.lean ====
/-
  The reference program's stages read at an index: each dense product as a sum over the contracted axis, each
  combined activation as the maximum with zero of the neighbour sum plus the scaled row plus the bias, the result as
  the logistic function of the projection plus its bias, and each neighbour sum as the scatter-add, from zero, of the
  gathered rows scaled by the two gathered node factors.
-/
import proofs.«149404_j2456721293532_2_alg».proof.Proof.Gen.ReferenceIdeal.Read
import Idealize.ShloMosaic.Lib.ValueIdx
import Idealize.ShloMosaic.Lib.Pipeline.Value
import Idealize.ShloMosaic.PureOps.Ideal.Laws

set_option maxRecDepth 16384

noncomputable section

open scoped BigOperators

namespace Cert.RefRead

open Cert.ReferenceIdeal Cert.ReferenceIdeal.Read Idealize.ShloMosaic Idealize.ShloMosaic.ValueIdx

variable (x : (⟨Cert.ReferenceIdeal.S100000x128, .f32⟩ : BufTy).Contents (Elt Ideal))
  (e : (⟨Cert.ReferenceIdeal.S2x1600000, .i32⟩ : BufTy).Contents (Elt Ideal))
  (W1 : (⟨Cert.ReferenceIdeal.S128x128, .f32⟩ : BufTy).Contents (Elt Ideal))
  (b1 : (⟨Cert.ReferenceIdeal.S128, .f32⟩ : BufTy).Contents (Elt Ideal))
  (W2 : (⟨Cert.ReferenceIdeal.S128x128, .f32⟩ : BufTy).Contents (Elt Ideal))
  (b2 : (⟨Cert.ReferenceIdeal.S128, .f32⟩ : BufTy).Contents (Elt Ideal))
  (Wo : (⟨Cert.ReferenceIdeal.S128x1, .f32⟩ : BufTy).Contents (Elt Ideal))
  (bo : (⟨Cert.ReferenceIdeal.S1, .f32⟩ : BufTy).Contents (Elt Ideal))
  (i : Fin 100000) (d k : Fin 128)

/-- The word `0x3F800000` is the number one. -/
private theorem ofBits_one : Ideal.ofBits .f32 0x3F800000#32 = 1 := by
  simp [Ideal.ofBits, Ideal.ieee, -EReal.coe_mul]; norm_num

/-! ## The three dense products -/

theorem v13_at : val_main_v13 (F := Ideal) x W1 (ix2 i d) = ∑ k : Fin 128, x (ix2 i k) * W1 (ix2 k d) := by
  rw [val_main_v13_apply]
  refine Finset.sum_congr rfl fun k _ => ?_
  have el : lidx_main_v13 (ix2 i d) k = ix2 i k := funext fun a => match a with | ⟨0, _⟩ => rfl | ⟨1, _⟩ => rfl
  have er : ridx_main_v13 (ix2 i d) k = ix2 k d := funext fun a => match a with | ⟨0, _⟩ => rfl | ⟨1, _⟩ => rfl
  rw [el, er]

theorem v50_at : val_main_v50 (F := Ideal) x e W1 b1 W2 (ix2 i d)
    = ∑ k : Fin 128, val_main_v49 (F := Ideal) x e W1 b1 (ix2 i k) * W2 (ix2 k d) := by
  rw [val_main_v50_apply]
  refine Finset.sum_congr rfl fun k _ => ?_
  have el : lidx_main_v50 (ix2 i d) k = ix2 i k := funext fun a => match a with | ⟨0, _⟩ => rfl | ⟨1, _⟩ => rfl
  have er : ridx_main_v50 (ix2 i d) k = ix2 k d := funext fun a => match a with | ⟨0, _⟩ => rfl | ⟨1, _⟩ => rfl
  rw [el, er]

theorem v87_at : val_main_v87 (F := Ideal) x e W1 b1 W2 b2 Wo (ix2 i (0 : Fin 1))
    = ∑ k : Fin 128, val_main_v86 (F := Ideal) x e W1 b1 W2 b2 (ix2 i k) * Wo (ix2 k (0 : Fin 1)) := by
  rw [val_main_v87_apply]
  refine Finset.sum_congr rfl fun k _ => ?_
  have el : lidx_main_v87 (ix2 i (0 : Fin 1)) k = ix2 i k :=
    funext fun a => match a with | ⟨0, _⟩ => rfl | ⟨1, _⟩ => rfl
  have er : ridx_main_v87 (ix2 i (0 : Fin 1)) k = ix2 k (0 : Fin 1) :=
    funext fun a => match a with | ⟨0, _⟩ => rfl | ⟨1, _⟩ => rfl
  rw [el, er]

/-! ## The two combined activations -/

theorem v49_at : val_main_v49 (F := Ideal) x e W1 b1 (ix2 i k)
    = max ((val_main_v41 (F := Ideal) x e W1 (ix2 i k)
        + val_main_v13 (F := Ideal) x W1 (ix2 i k) * val_main_v12 (F := Ideal) e (ix1 i)) + b1 (ix1 k)) 0 := by
  have e1 : idx_main_v42 (idx_main_v43 (ix2 i k)) = ix1 i := funext fun a => match a with | ⟨0, _⟩ => rfl
  have e2 : idx_main_v46 (idx_main_v47 (ix2 i k)) = ix1 k := funext fun a => match a with | ⟨0, _⟩ => rfl
  rw [val_main_v49_apply, val_main_v48_apply, val_main_v45_apply, val_main_v44_apply, val_main_v43_apply,
    val_main_v42_apply, val_main_v47_apply, val_main_v46_apply, val_main_call0_v0_apply, val_main_call0_cst_apply,
    e1, e2, Ideal.ofBits_def, Ideal.ofBits_zero_f32]
  rfl

theorem v86_at : val_main_v86 (F := Ideal) x e W1 b1 W2 b2 (ix2 i k)
    = max ((val_main_v78 (F := Ideal) x e W1 b1 W2 (ix2 i k)
        + val_main_v50 (F := Ideal) x e W1 b1 W2 (ix2 i k) * val_main_v12 (F := Ideal) e (ix1 i)) + b2 (ix1 k)) 0 := by
  have e1 : idx_main_v79 (idx_main_v80 (ix2 i k)) = ix1 i := funext fun a => match a with | ⟨0, _⟩ => rfl
  have e2 : idx_main_v83 (idx_main_v84 (ix2 i k)) = ix1 k := funext fun a => match a with | ⟨0, _⟩ => rfl
  rw [val_main_v86_apply, val_main_v85_apply, val_main_v82_apply, val_main_v81_apply, val_main_v80_apply,
    val_main_v79_apply, val_main_v84_apply, val_main_v83_apply, val_main_call1_v0_apply, val_main_call1_cst_apply,
    e1, e2, Ideal.ofBits_def, Ideal.ofBits_zero_f32]
  rfl

/-! ## The result -/

theorem v97_at : val_main_v97 (F := Ideal) x e W1 b1 W2 b2 Wo bo (ix1 i)
    = Ideal.logistic (val_main_v87 (F := Ideal) x e W1 b1 W2 b2 Wo (ix2 i (0 : Fin 1)) + bo (ix1 (0 : Fin 1))) := by
  have e0 : idx_main_v97 (ix1 i) = ix2 i (0 : Fin 1) :=
    funext fun a => match a with | ⟨0, _⟩ => Fin.ext (Nat.div_one _) | ⟨1, _⟩ => rfl
  have e1 : idx_main_v88 (idx_main_v89 (ix2 i (0 : Fin 1))) = ix1 (0 : Fin 1) :=
    funext fun a => match a with | ⟨0, _⟩ => rfl
  rw [val_main_v97_apply, e0, val_main_v96_apply, val_main_v95_apply, val_main_cst_17_apply, val_main_v94_apply,
    val_main_v93_apply, val_main_cst_16_apply, val_main_v92_apply, val_main_v91_apply, val_main_v90_apply,
    val_main_v89_apply, val_main_v88_apply, e1, Ideal.ofBits_def, ofBits_one]
  simp only [Ideal.hostDivf_def, Ideal.addf_def, Ideal.hostUnary_exp_def, Ideal.hostNegf_def, Ideal.negf_def,
    Ideal.logistic]

/-! ## The neighbour sums -/

theorem v39_zero : ∀ j, val_main_v39 (F := Ideal) j = 0 := fun j => by
  rw [val_main_v39_apply, val_main_cst_8_apply, Ideal.ofBits_def, Ideal.ofBits_zero_f32]

theorem v76_zero : ∀ j, val_main_v76 (F := Ideal) j = 0 := fun j => by
  rw [val_main_v76_apply, val_main_cst_15_apply, Ideal.ofBits_def, Ideal.ofBits_zero_f32]

theorem v41_eq : val_main_v41 (F := Ideal) x e W1
    = Ideal.hostScatterAdd Cert.ReferenceIdeal.scatter_S100000x128_S1600000x1_S1600000x128_1_0_0_1
        (val_main_v39 (F := Ideal)) (val_main_v40 (F := Ideal) e)
        (fun j => Host.gather Cert.ReferenceIdeal.gather_S100000x128_S1600000x1_S1600000x128_1_0_n_n_0_1_1128
            (val_main_v13 (F := Ideal) x W1) (val_main_v34 (F := Ideal) e) j
          * (Host.gather Cert.ReferenceIdeal.gather_S100000_S1600000x1_S1600000_n_0_n_n_0_1_1
              (val_main_v10 (F := Ideal) e) (val_main_v19 (F := Ideal) e) (ix1 (j 0))
            * Host.gather Cert.ReferenceIdeal.gather_S100000_S1600000x1_S1600000_n_0_n_n_0_1_1
              (val_main_v10 (F := Ideal) e) (val_main_v26 (F := Ideal) e) (ix1 (j 0)))) := by
  unfold val_main_v41 Host.scatterAdd
  rw [Ideal.hostScatterAdd_def]
  refine congrArg (Ideal.hostScatterAdd Cert.ReferenceIdeal.scatter_S100000x128_S1600000x1_S1600000x128_1_0_0_1
    (val_main_v39 (F := Ideal)) (val_main_v40 (F := Ideal) e)) (funext fun j => ?_)
  have e1 : idx_main_v36 (idx_main_v37 j) = ix1 (j 0) := funext fun a => match a with | ⟨0, _⟩ => rfl
  rw [val_main_v38_apply, val_main_v37_apply, val_main_v36_apply, val_main_v28_apply, e1]
  unfold val_main_v35 val_main_v20 val_main_v27
  rfl

theorem v78_eq : val_main_v78 (F := Ideal) x e W1 b1 W2
    = Ideal.hostScatterAdd Cert.ReferenceIdeal.scatter_S100000x128_S1600000x1_S1600000x128_1_0_0_1
        (val_main_v76 (F := Ideal)) (val_main_v77 (F := Ideal) e)
        (fun j => Host.gather Cert.ReferenceIdeal.gather_S100000x128_S1600000x1_S1600000x128_1_0_n_n_0_1_1128
            (val_main_v50 (F := Ideal) x e W1 b1 W2) (val_main_v71 (F := Ideal) e) j
          * (Host.gather Cert.ReferenceIdeal.gather_S100000_S1600000x1_S1600000_n_0_n_n_0_1_1
              (val_main_v10 (F := Ideal) e) (val_main_v56 (F := Ideal) e) (ix1 (j 0))
            * Host.gather Cert.ReferenceIdeal.gather_S100000_S1600000x1_S1600000_n_0_n_n_0_1_1
              (val_main_v10 (F := Ideal) e) (val_main_v63 (F := Ideal) e) (ix1 (j 0)))) := by
  unfold val_main_v78 Host.scatterAdd
  rw [Ideal.hostScatterAdd_def]
  refine congrArg (Ideal.hostScatterAdd Cert.ReferenceIdeal.scatter_S100000x128_S1600000x1_S1600000x128_1_0_0_1
    (val_main_v76 (F := Ideal)) (val_main_v77 (F := Ideal) e)) (funext fun j => ?_)
  have e1 : idx_main_v73 (idx_main_v74 j) = ix1 (j 0) := funext fun a => match a with | ⟨0, _⟩ => rfl
  rw [val_main_v75_apply, val_main_v74_apply, val_main_v73_apply, val_main_v65_apply, e1]
  unfold val_main_v72 val_main_v57 val_main_v64
  rfl

end Cert.RefRead

end
-- ==== Proof.Bridge.lean ====
/-
  The two programs compute one function.

  Both programs build the degree (with a self loop) and its inverse square root `s` by the same operations. The
  reference then forms, per layer, `agg i = ∑_{e → i} h (src e) · (s (src e) · s (dst e))` and
  `relu ((agg i + h i / deg i) + b)`; the kernel program holds the table already scaled, `hs i = h i · s i`, sums the
  gathered rows of `hs` at their destinations and applies `relu (s i · (seg i + hs i) + b)`. The aggregation law
  (the module on aggregation) makes the two equal, layer by layer; the products with the weights are the same sums
  on both sides, and the logistic function is `1 / (1 + e^(−x))` on both sides.
-/
import proofs.«149404_j2456721293532_2_alg».proof.Proof.KTerm
import proofs.«149404_j2456721293532_2_alg».proof.Proof.Gen.ReferenceIdeal.Read
import proofs.«149404_j2456721293532_2_alg».proof.Proof.Aggregate
import proofs.«149404_j2456721293532_2_alg».proof.Proof.Degree
import proofs.«149404_j2456721293532_2_alg».proof.Proof.NormDst
import proofs.«149404_j2456721293532_2_alg».proof.Proof.RefRead
import Idealize.ShloMosaic.Lib.Pipeline.Value

set_option maxRecDepth 16384

noncomputable section

open scoped BigOperators

namespace Cert.Bridge

open Idealize.ShloMosaic Idealize.ShloMosaic.ValueIdx Cert.LibIdx
open Cert.KernelIdeal.Term Cert.ReferenceIdeal.Read

variable (x : FVec Ideal Cert.KernelIdeal.S100000x128 .f32) (e : IVec Cert.KernelIdeal.S2x1600000 32)
  (W1 : FVec Ideal Cert.KernelIdeal.S128x128 .f32) (b1 : FVec Ideal Cert.KernelIdeal.S128 .f32)
  (W2 : FVec Ideal Cert.KernelIdeal.S128x128 .f32) (b2 : FVec Ideal Cert.KernelIdeal.S128 .f32)
  (Wo : FVec Ideal Cert.KernelIdeal.S128x1 .f32) (bo : FVec Ideal Cert.KernelIdeal.S1 .f32)

/-! ## The small reshapes read at an index -/

/-- The factor column at `(i, 0)` is the factor of node `i`. -/
theorem isdCol_at (i : Fin 100000) : isdCol e (ix2 i (0 : Fin 1)) = isd e (ix1 i) := by
  unfold isdCol
  exact shapeCast_apply _ _ _ (ix1 i)
    (by rewrite [Shape.rowMajor_val_two, Shape.rowMajor_val_one]; show i.val = i.val * 1 + 0; omega)

/-- A bias row at `(0, k)` is the bias of feature `k`. -/
theorem row_at (b : FVec Ideal Cert.KernelIdeal.S128 .f32) (k : Fin 128) : row b (ix2 (0 : Fin 1) k) = b (ix1 k) := by
  unfold row
  exact shapeCast_apply _ _ _ (ix1 k)
    (by rewrite [Shape.rowMajor_val_two, Shape.rowMajor_val_one]; show k.val = 0 * 128 + k.val; omega)

/-- The projection bias's one cell. -/
theorem cell_at : cell bo (ix2 (0 : Fin 1) (0 : Fin 1)) = bo (ix1 (0 : Fin 1)) := by
  unfold cell
  exact shapeCast_apply _ _ _ (ix1 (0 : Fin 1))
    (by rewrite [Shape.rowMajor_val_two, Shape.rowMajor_val_one]; rfl)

/-- The result vector at `i` is the last stage's column at `(i, 0)`. -/
theorem out_at (i : Fin 100000) : out x e W1 b1 W2 b2 Wo bo (ix1 i) = y2 x e W1 b1 W2 b2 Wo bo (ix2 i (0 : Fin 1)) := by
  unfold out
  exact shapeCast_apply _ _ _ (ix2 i (0 : Fin 1))
    (by rewrite [Shape.rowMajor_val_two, Shape.rowMajor_val_one]; show i.val * 1 + 0 = i.val; omega)

/-! ## The dimension numbers of the two programs are the library's row / vector forms -/

theorem kG : Cert.KernelIdeal.gather_S100000x128_S1600000x1_S1600000x128_1_0_n_n_0_1_1128
    = rowGather 100000 128 1600000 Cert.KernelIdeal.gather_S100000x128_S1600000x1_S1600000x128_1_0_n_n_0_1_1128.wf := rfl
theorem kS : Cert.KernelIdeal.scatter_S100000x128_S1600000x1_S1600000x128_1_0_0_1
    = rowScatter 100000 128 1600000 Cert.KernelIdeal.scatter_S100000x128_S1600000x1_S1600000x128_1_0_0_1.wf := rfl
theorem rG : Cert.ReferenceIdeal.gather_S100000x128_S1600000x1_S1600000x128_1_0_n_n_0_1_1128
    = rowGather 100000 128 1600000 Cert.KernelIdeal.gather_S100000x128_S1600000x1_S1600000x128_1_0_n_n_0_1_1128.wf := rfl
theorem rS : Cert.ReferenceIdeal.scatter_S100000x128_S1600000x1_S1600000x128_1_0_0_1
    = rowScatter 100000 128 1600000 Cert.KernelIdeal.scatter_S100000x128_S1600000x1_S1600000x128_1_0_0_1.wf := rfl
theorem rV : Cert.ReferenceIdeal.gather_S100000_S1600000x1_S1600000_n_0_n_n_0_1_1
    = vecGather 100000 1600000 Cert.ReferenceIdeal.gather_S100000_S1600000x1_S1600000_n_0_n_n_0_1_1.wf := rfl

/-- The neighbour sum in the library's dimension numbers. -/
theorem seg_eq (Y : FVec Ideal Cert.KernelIdeal.S100000x128 .f32) :
    seg Y e = Ideal.hostScatterAdd (rowScatter 100000 128 1600000 Cert.KernelIdeal.scatter_S100000x128_S1600000x1_S1600000x128_1_0_0_1.wf)
      (val_main_v39 (F := Ideal)) (didx e)
      (Host.gather (rowGather 100000 128 1600000 Cert.KernelIdeal.gather_S100000x128_S1600000x1_S1600000x128_1_0_n_n_0_1_1128.wf) Y (sidx e)) := rfl

/-! ## One graph-convolution layer -/

/-- ONE LAYER. For a feature table `h` whose scaled form `hs` the kernel holds, the kernel's combined activation is the
    reference's `max ((agg + h / deg) + b) 0`, `agg` the reference's scatter-add of the weighted messages. -/
theorem layer (h : FVec Ideal Cert.KernelIdeal.S100000x128 .f32) (b : FVec Ideal Cert.KernelIdeal.S128 .f32)
    (z : FVec Ideal Cert.KernelIdeal.S100000x128 .f32) (hz : z = val_main_v39 (F := Ideal))
    (dI sI1 sI2 dN : IVec Cert.KernelIdeal.S1600000x1 32)
    (hdI : dI = didx e) (hsI1 : sI1 = sidx e) (hsI2 : sI2 = sidx e) (hdN : dN = val_main_v26 (F := Ideal) e)
    (i : Fin 100000) (k : Fin 128) :
    Cert.Spec.act (isdCol e) (seg (fun q => h q * isd e (ix1 (q 0))) e) (fun q => h q * isd e (ix1 (q 0))) (row b) i k
      = max ((Ideal.hostScatterAdd Cert.ReferenceIdeal.scatter_S100000x128_S1600000x1_S1600000x128_1_0_0_1 z dI
            (fun j => Host.gather Cert.ReferenceIdeal.gather_S100000x128_S1600000x1_S1600000x128_1_0_n_n_0_1_1128 h sI1 j
              * (Host.gather Cert.ReferenceIdeal.gather_S100000_S1600000x1_S1600000_n_0_n_n_0_1_1 (val_main_v10 (F := Ideal) e) sI2 (ix1 (j 0))
                * Host.gather Cert.ReferenceIdeal.gather_S100000_S1600000x1_S1600000_n_0_n_n_0_1_1 (val_main_v10 (F := Ideal) e) dN (ix1 (j 0))))
            (ix2 i k)
          + h (ix2 i k) * val_main_v12 (F := Ideal) e (ix1 i)) + b (ix1 k)) 0 := by
  subst hz hdI hsI1 hsI2 hdN
  unfold Cert.Spec.act
  rw [isdCol_at, row_at, seg_eq, rS, rG, rV]
  have hv10 : val_main_v10 (F := Ideal) e = isd e := rfl
  rw [hv10]
  have key := Cert.Aggregate.agg (N := 100000) (D := 128) (E := 1600000) (by decide)
    Cert.KernelIdeal.gather_S100000x128_S1600000x1_S1600000x128_1_0_n_n_0_1_1128.wf
    Cert.ReferenceIdeal.gather_S100000_S1600000x1_S1600000_n_0_n_n_0_1_1.wf
    Cert.KernelIdeal.scatter_S100000x128_S1600000x1_S1600000x128_1_0_0_1.wf
    h (isd e) (val_main_v12 (F := Ideal) e) (val_main_v39 (F := Ideal)) Cert.RefRead.v39_zero (sidx e) (didx e) (val_main_v26 (F := Ideal) e)
    (Cert.Degree.isd_nonneg e) (Cert.Degree.isd_ne_top e) (Cert.Degree.isd_sq e) (Cert.NormDst.dst_norm e) i k
  exact congrArg (fun t => max (t + b (ix1 k)) 0) key

/-! ## The chain of the three dense stages -/

/-- The first table is the reference's `x · W1` with every row scaled by its node's factor. -/
theorem y0_eq : y0 x e W1 = fun q => val_main_v13 (F := Ideal) x W1 q * isd e (ix1 (q 0)) := by
  funext q
  obtain ⟨i, d, rfl⟩ : ∃ (i : Fin 100000) (d : Fin 128), q = ix2 i d := ⟨q 0, q 1, eq_ix2 q⟩
  unfold y0 Cert.Spec.lin0
  show (∑ k : Fin 128, x (ix2 i k) * W1 (ix2 k d)) * isdCol e (ix2 i (0 : Fin 1)) = _
  rw [isdCol_at, Cert.RefRead.v13_at]

/-- The first layer's activation is the reference's. -/
theorem act1 (i : Fin 100000) (k : Fin 128) :
    Cert.Spec.act (isdCol e) (seg (y0 x e W1) e) (y0 x e W1) (row b1) i k = val_main_v49 (F := Ideal) x e W1 b1 (ix2 i k) := by
  rw [y0_eq, Cert.RefRead.v49_at, Cert.RefRead.v41_eq]
  exact layer e (val_main_v13 (F := Ideal) x W1) b1 _ rfl _ _ _ _ rfl rfl rfl rfl i k

/-- The second table is the reference's `relu₁ · W2` with every row scaled by its node's factor. -/
theorem y1_eq : y1 x e W1 b1 W2 = fun q => val_main_v50 (F := Ideal) x e W1 b1 W2 q * isd e (ix1 (q 0)) := by
  funext q
  obtain ⟨i, d, rfl⟩ : ∃ (i : Fin 100000) (d : Fin 128), q = ix2 i d := ⟨q 0, q 1, eq_ix2 q⟩
  unfold y1 Cert.Spec.lin1
  show (∑ k : Fin 128, Cert.Spec.act (isdCol e) (seg (y0 x e W1) e) (y0 x e W1) (row b1) i k * W2 (ix2 k d))
      * isdCol e (ix2 i (0 : Fin 1)) = _
  rw [isdCol_at, Cert.RefRead.v50_at, Finset.sum_congr rfl (fun k _ => by rw [act1])]

/-- The second layer's activation is the reference's. -/
theorem act2 (i : Fin 100000) (k : Fin 128) :
    Cert.Spec.act (isdCol e) (seg (y1 x e W1 b1 W2) e) (y1 x e W1 b1 W2) (row b2) i k
      = val_main_v86 (F := Ideal) x e W1 b1 W2 b2 (ix2 i k) := by
  rw [y1_eq, Cert.RefRead.v86_at, Cert.RefRead.v78_eq]
  exact layer e (val_main_v50 (F := Ideal) x e W1 b1 W2) b2 _ rfl _ _ _ _ rfl rfl rfl rfl i k

/-- THE TWO PROGRAMS COMPUTE ONE FUNCTION: the reference's result term is the kernel program's. -/
theorem result_eq : val_main_v97 (F := Ideal) x e W1 b1 W2 b2 Wo bo = out x e W1 b1 W2 b2 Wo bo := by
  funext j
  obtain ⟨i, rfl⟩ : ∃ i : Fin 100000, j = ix1 i := ⟨j 0, eq_ix1 j⟩
  rw [out_at, Cert.RefRead.v97_at, Cert.RefRead.v87_at]
  unfold y2 Cert.Spec.lin2
  show _ = Ideal.logistic ((∑ k : Fin 128,
      Cert.Spec.act (isdCol e) (seg (y1 x e W1 b1 W2) e) (y1 x e W1 b1 W2) (row b2) i k * Wo (ix2 k (0 : Fin 1)))
      + cell bo (ix2 (0 : Fin 1) (0 : Fin 1)))
  rw [cell_at]
  refine congrArg Ideal.logistic ?_
  refine congrArg (fun t => t + bo (ix1 (0 : Fin 1))) ?_
  exact Finset.sum_congr rfl (fun k _ => by rw [act2])

end Cert.Bridge

end
-- ==== Proof.lean ====
/-
  A two-layer graph convolution with a logistic read-out, on 100000 nodes with 128 features and 1600000 edges: the
  kernel program against its reference, equal on the extended reals.

  Write `deg i` for one plus the number of edges arriving at node `i`, `s i = deg i ^ (-1/2)`, and for a feature table `h`

      conv h i  =  ∑_{e : dst e = i} h (src e) · (s (src e) · s (dst e))  +  h i · (1 / deg i)  +  b.

  The reference computes `relu (conv (x · W1))`, then `relu (conv (· · W2))`, then the logistic function of the
  projection onto one column. The kernel program moves the edge weight's two factors out of the sum: each dense stage
  writes its table already scaled by the node's factor, `hs i = h i · s i`; the rows of `hs` are gathered at the sources
  and added up at the destinations; and the next dense stage multiplies by the destination's factor once,
  `relu (s i · (seg i + hs i) + b)`. Since `s i` is a positive real number — the degree is one plus a count —
  multiplication by it distributes over every sum of extended reals, and `s i · s i = 1 / deg i`; this is the only
  law that joins the two sides (module Aggregate), and no finiteness of the inputs is used. An edge whose
  destination index names no node is dropped by both programs; a destination index that names a node is
  non-negative, so the reference's wrap of negative indices leaves it alone (module NormDst).

  The kernel program's three dense stages run block by block (20 blocks of 5000 rows); modules Region0, Region1,
  Region2 read each stage's output array as one whole-array function of its input arrays (module Spec), modules
  KernelFold0, KernelFold, KernelRun follow the buffers between the stages and state the program's run with its
  result named (module KTerm), module RefRead reads the reference's stages at an index, module Bridge joins the
  two result terms, and module Claims assembles the five claims.
-/
import proofs.«149404_j2456721293532_2_alg».proof.Defs
import proofs.«149404_j2456721293532_2_alg».proof.Proof.Gen.Kernel
import proofs.«149404_j2456721293532_2_alg».proof.Proof.Gen.Kernel.Skeleton
import proofs.«149404_j2456721293532_2_alg».proof.Proof.Gen.Kernel.Launch
import proofs.«149404_j2456721293532_2_alg».proof.Proof.Gen.Kernel.Points
import proofs.«149404_j2456721293532_2_alg».proof.Proof.Gen.Kernel.Frame
import proofs.«149404_j2456721293532_2_alg».proof.Proof.Gen.KernelIdeal
import proofs.«149404_j2456721293532_2_alg».proof.Proof.Gen.KernelIdeal.Skeleton
import proofs.«149404_j2456721293532_2_alg».proof.Proof.Gen.KernelIdeal.Launch
import proofs.«149404_j2456721293532_2_alg».proof.Proof.Gen.KernelIdeal.Points
import proofs.«149404_j2456721293532_2_alg».proof.Proof.Gen.KernelIdeal.Frame
import proofs.«149404_j2456721293532_2_alg».proof.Proof.Gen.ReferenceIdeal
import proofs.«149404_j2456721293532_2_alg».proof.Proof.Gen.Pre_finite_inputs
import proofs.«149404_j2456721293532_2_alg».proof.Proof.Gen.ReferenceIdeal.Run
import proofs.«149404_j2456721293532_2_alg».proof.Proof.Gen.ReferenceIdeal.Read
import proofs.«149404_j2456721293532_2_alg».proof.Proof.Claims
import proofs.«149404_j2456721293532_2_alg».proof.Proof.Bridge
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Cert.Proof.Claims.frame_k, Cert.Proof.Claims.frame_ki, Cert.Proof.Claims.frame_ri, Cert.Proof.Claims.preserves,
  Cert.Proof.Claims.algebraic Cert.Bridge.result_eq⟩

end Cert.Proof

end
